-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x256 .f32) (main_arg3 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S512x4096 : Shape := ⟨2, ![512, 4096]⟩
abbrev S512x256 : Shape := ⟨2, ![512, 256]⟩

abbrev nBuf : Space → Nat
  | .hbm => 19
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S256x256, .f32⟩
  | .hbm, ⟨11, _⟩ => ⟨S_, .i32⟩
  | .hbm, ⟨12, _⟩ => ⟨S_, .f32⟩
  | .hbm, ⟨13, _⟩ => ⟨S256x256, .f32⟩
  | .hbm, ⟨14, _⟩ => ⟨S1x256, .f32⟩
  | .hbm, ⟨15, _⟩ => ⟨S_, .i32⟩
  | .hbm, ⟨16, _⟩ => ⟨S_, .f32⟩
  | .hbm, ⟨17, _⟩ => ⟨S1x256, .f32⟩
  | .hbm, ⟨18, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S4096x4096_S4096x4096_000_000 : S4096x4096.Pads (![0, 0] : Fin 2 → Nat) ![0, 0] ![0, 0] S4096x4096
  h_S_ : 0 < S_.numel
  pads_S4096x256_S4096x256_000_000 : S4096x256.Pads (![0, 0] : Fin 2 → Nat) ![0, 0] ![0, 0] S4096x256
  transposes_S256x256_S256x256_1_0 : S256x256.Transposes [1, 0] S256x256
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 20
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S256x256, .f32⟩
  | .hbm, ⟨11, _⟩ => ⟨S_, .i32⟩
  | .hbm, ⟨12, _⟩ => ⟨S_, .f32⟩
  | .hbm, ⟨13, _⟩ => ⟨S256x256, .f32⟩
  | .hbm, ⟨14, _⟩ => ⟨S1x256, .f32⟩
  | .hbm, ⟨15, _⟩ => ⟨S_, .i32⟩
  | .hbm, ⟨16, _⟩ => ⟨S_, .f32⟩
  | .hbm, ⟨17, _⟩ => ⟨S1x256, .f32⟩
  | .hbm, ⟨18, _⟩ => ⟨S4096x256, .f32⟩
  | .hbm, ⟨19, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x4096_S4096x4096_000_000 : S4096x4096.Pads (![0, 0] : Fin 2 → Nat) ![0, 0] ![0, 0] S4096x4096
  h_S_ : 0 < S_.numel
  pads_S4096x256_S4096x256_000_000 : S4096x256.Pads (![0, 0] : Fin 2 → Nat) ![0, 0] ![0, 0] S4096x256
  transposes_S256x256_S256x256_1_0 : S256x256.Transposes [1, 0] S256x256
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .f32 = 32 ∨ (Rect.block (s := S4096x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Layer.lean ====
/-
  One graph-convolution layer, entry by entry, over the extended reals.

  The arrays are an adjacency-like matrix `g` (4096 × 4096), node features `h` (4096 × 256), a weight matrix `w`
  (256 outputs × 256 inputs) and a bias `b` (256). The layer is `max (g · h · wᵀ + b) 0`, and the product of three
  matrices can be bracketed in two ways:

  * `aggFirst`: aggregate over the nodes first, `(g · h) · wᵀ` — entry (p, o) sums over the input feature `k` the
    aggregated feature `∑ j, g p j * h j k` times `w o k`;
  * `projFirst`: project the features first, `g · (h · wᵀ)`, the sum over the 4096 nodes taken as 16 consecutive
    blocks of 256 — entry (p, o) sums over the block `kb` and the node `j'` inside it `g p j` times the projected
    feature `∑ k, h j k * w o k`, where `j = 256 · kb + j'`.

  Both are functions of the coordinates `(p, o)`; `whole` turns such a function into the 4096 × 256 array.
  That the two agree when every entry of the arrays is a real number is the associativity of the matrix product
  (distributivity on both sides of the inner sums), and is proved in `LayerAlgebra`; on the extended reals
  themselves it fails (a product with an infinite factor does not distribute over a sum of opposite signs).
-/
import Idealize.ShloMosaic.PureOps.Ideal
import Idealize.ShloMosaic.Lib.ValueIdx

noncomputable section

open scoped BigOperators

namespace Cert.Layer

open Idealize.ShloMosaic Idealize.ShloMosaic.ValueIdx

/-- The shapes of the four arrays and of the result, as literals. -/
abbrev SG : Shape := ⟨2, ![4096, 4096]⟩
abbrev SH : Shape := ⟨2, ![4096, 256]⟩
abbrev SW : Shape := ⟨2, ![256, 256]⟩
abbrev SB : Shape := ⟨1, ![256]⟩

/-- Node `j'` of block `kb`, among the 4096 nodes cut into 16 consecutive blocks of 256. -/
def blk (kb : Fin 16) (j' : Fin 256) : Fin 4096 := ⟨kb.val * 256 + j'.val, by omega⟩

theorem blk_val (kb : Fin 16) (j' : Fin 256) : (blk kb j').val = kb.val * 256 + j'.val := rfl

/-- Entry (p, o) of `max ((g · h) · wᵀ + b) 0`: the nodes aggregated first, then projected. -/
def aggFirst (g : SG.Idx → EReal) (h : SH.Idx → EReal) (w : SW.Idx → EReal) (b : SB.Idx → EReal)
    (p : Fin 4096) (o : Fin 256) : EReal :=
  max ((∑ k : Fin 256, (∑ j : Fin 4096, g (ix2 p j) * h (ix2 j k)) * w (ix2 o k)) + b (ix1 o)) 0

/-- Entry (p, o) of `max (g · (h · wᵀ) + b) 0`: the features projected first, then aggregated block by block. -/
def projFirst (g : SG.Idx → EReal) (h : SH.Idx → EReal) (w : SW.Idx → EReal) (b : SB.Idx → EReal)
    (p : Fin 4096) (o : Fin 256) : EReal :=
  max ((∑ kb : Fin 16, ∑ j' : Fin 256,
      g (ix2 p (blk kb j')) * (∑ k : Fin 256, h (ix2 (blk kb j') k) * w (ix2 o k))) + b (ix1 o)) 0

/-- A function of the two coordinates as the 4096 × 256 array. -/
def whole (f : Fin 4096 → Fin 256 → EReal) : SH.Idx → EReal := fun i => f (i 0) (i 1)

theorem whole_ix2 (f : Fin 4096 → Fin 256 → EReal) (p : Fin 4096) (o : Fin 256) : whole f (ix2 p o) = f p o := rfl

end Cert.Layer

end
-- ==== Proof.KernelValuePayload.lean ====
/-
  One entry of what a grid point stores.

  A grid point holds a block of 512 rows of `g` (512 × 4096), the whole of `h` (4096 × 256), the transposed weights
  `wᵀ` (256 inputs × 256 outputs) and the bias as one row (1 × 256). Its body multiplies the row block by `h`, the
  product by `wᵀ`, adds the bias row to every row and takes the maximum with zero. Both products accumulate into a
  zero block, so over the extended reals each is the plain sum over the contracted coordinate: entry (r, o) of the
  stored block is

      max (∑ k, (∑ j, g-block (r, j) * h (j, k)) * wᵀ (k, o) + bias (0, o)) 0 .

  Only the four loaded blocks appear: row r of the row block, all of `h`, column o of `wᵀ`, entry o of the bias row.
-/
import proofs.«128712_g2000203924513823_pallasbulk_293_2_alg».proof.Proof.Gen.KernelIdeal.Skeleton
import Idealize.ShloMosaic.Lib.ValueLayout
import Idealize.ShloMosaic.Lib.StackMember

noncomputable section

open scoped BigOperators

namespace Cert.KernelIdeal.WholeValue

open Idealize.ShloMosaic Idealize.ShloMosaic.ValueIdx Cert.KernelIdeal Cert.KernelIdeal.Gen

/-- The first product's dimension numbers are those of a plain 512 × 4096 by 4096 × 256 product. -/
theorem dotAgg_eq : dot_S512x4096_S4096x256_S512x256_1_0_0_1_n_n = DotDims.plain 512 4096 256 := rfl

/-- The second product's dimension numbers are those of a plain 512 × 256 by 256 × 256 product. -/
theorem dotProj_eq : dot_S512x256_S256x256_S512x256_1_0_0_1_n_n = DotDims.plain 512 256 256 := rfl

/-- A plain product accumulated into the zero block, read at (r, c): the sum over the contracted coordinate. -/
theorem matmul_plain_zero_apply {a k n : Nat} (prec : Option ContractPrecision)
    (A : FVec Ideal ⟨2, ![a, k]⟩ .f32) (B : FVec Ideal ⟨2, ![k, n]⟩ .f32) (r : Fin a) (c : Fin n) :
    matmul (DotDims.plain a k n) prec A B (constant ⟨2, ![a, n]⟩ .f32 0x00000000#32) (ix2 r c)
      = ∑ q : Fin k, A (ix2 r q) * B (ix2 q c) := by
  rw [matmul_zero_eq_dotGeneral]
  exact StackMember.dotGeneral_plain_apply prec A B r c

/-- Entry (r, o) of the block a grid point stores, from the four blocks it loaded. -/
theorem payload_apply (x0 : Vec Ideal S512x4096 .f32) (x1 : Vec Ideal S4096x256 .f32) (x2 : Vec Ideal S256x256 .f32)
    (x3 : Vec Ideal S1x256 .f32) (r : Fin 512) (o : Fin 256) :
    k0_pay1 (F := Ideal) x0 x1 x2 x3 (ix2 r o)
      = max ((∑ k : Fin 256, (∑ j : Fin 4096, x0 (ix2 r j) * x1 (ix2 j k)) * x2 (ix2 k o)) + x3 (ix2 (0 : Fin 1) o)) 0 := by
  unfold k0_pay1
  rw [maximumf_apply, addf_apply, broadcast_apply, broadcastTo_1b_ab_apply]
  simp only [shapeCast_self, dotAgg_eq, dotProj_eq]
  rw [matmul_plain_zero_apply]
  simp only [matmul_plain_zero_apply]
  show max _ (Ideal.ofBits .f32 0x00000000#32) = _
  rw [Ideal.ofBits_zero_f32]

end Cert.KernelIdeal.WholeValue

end
-- ==== Proof.KernelValueHost.lean ====
/-
  What the grid points find in the four input arrays.

  Before the grid runs, the program passes each argument through operations that move no value: `g` and `h` are padded
  by zero entries on every side (no entry is added), the weights are transposed and then padded by nothing, and the bias
  is reshaped from 256 entries to one row of 256 and padded by nothing. So the array the row blocks are cut from is `g`
  itself, the second array is `h` itself, entry (k, o) of the third is `w (o, k)`, and entry (0, o) of the fourth is
  `b o`.
-/
import proofs.«128712_g2000203924513823_pallasbulk_293_2_alg».proof.Proof.Gen.KernelIdeal.Frame
import Idealize.ShloMosaic.Lib.ValueLayout
import Idealize.ShloMosaic.Lib.KernelVsHost

noncomputable section

namespace Cert.KernelIdeal.WholeValue

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ)

/-- Padding a matrix by nothing on every side, with nothing between its entries, leaves the matrix. -/
theorem pad_nothing {a b : Nat} {α : Type} (x : (⟨2, ![a, b]⟩ : Shape).Idx → α) {u : Shape} (v : u.Idx → α)
    (h : (⟨2, ![a, b]⟩ : Shape).Pads (![0, 0] : Fin 2 → Nat) ![0, 0] ![0, 0] ⟨2, ![a, b]⟩) (hu : 0 < u.numel) :
    pad ⟨2, ![a, b]⟩ ![0, 0] ![0, 0] ![0, 0] x v h hu = x :=
  funext fun j => pad_apply_of_inside _ _ _ x v h hu j j fun ax => by
    match ax with
    | ⟨0, _⟩ => show (j 0).val = 0 + (j 0).val * (0 + 1); omega
    | ⟨1, _⟩ => show (j 1).val = 0 + (j 1).val * (0 + 1); omega

/-- The array the row blocks are cut from is `g` as launched. -/
theorem entry_g (c : Dev nD) : (V m c main_v0 : S4096x4096.Idx → EReal) = m ((c : Thread nD τ).loc main_arg0) := by
  dsimp only [V]
  simp only [hostOps0, hostOps0_1, hostOps0_2, hostOps0_3, hostOps0_4, hostOps0_5, hostOps0_6, hostOps0_7,
    List.flatten_cons, List.flatten_nil, List.append_nil, List.cons_append, List.nil_append]
  after_results
  show pad S4096x4096 ![0, 0] ![0, 0] ![0, 0] (m ((c : Thread nD τ).loc main_arg0) : S4096x4096.Idx → EReal) _
    pads_S4096x4096_S4096x4096_000_000 h_S_ = _
  exact pad_nothing _ _ _ _

/-- The second input array is `h` as launched. -/
theorem entry_h (c : Dev nD) : (V m c main_v1 : S4096x256.Idx → EReal) = m ((c : Thread nD τ).loc main_arg1) := by
  dsimp only [V]
  simp only [hostOps0, hostOps0_1, hostOps0_2, hostOps0_3, hostOps0_4, hostOps0_5, hostOps0_6, hostOps0_7,
    List.flatten_cons, List.flatten_nil, List.append_nil, List.cons_append, List.nil_append]
  after_results
  show pad S4096x256 ![0, 0] ![0, 0] ![0, 0] (m ((c : Thread nD τ).loc main_arg1) : S4096x256.Idx → EReal) _
    pads_S4096x256_S4096x256_000_000 h_S_ = _
  exact pad_nothing _ _ _ _

/-- The third input array is the transpose of the weights: its entry (k, o) is `w (o, k)`. -/
theorem entry_w (c : Dev nD) (k o : Fin 256) : (V m c main_v3 : S256x256.Idx → EReal) (ix2 k o)
    = (m ((c : Thread nD τ).loc main_arg2) : S256x256.Idx → EReal) (ix2 o k) := by
  dsimp only [V]
  simp only [hostOps0, hostOps0_1, hostOps0_2, hostOps0_3, hostOps0_4, hostOps0_5, hostOps0_6, hostOps0_7,
    List.flatten_cons, List.flatten_nil, List.append_nil, List.cons_append, List.nil_append]
  after_results
  show pad S256x256 ![0, 0] ![0, 0] ![0, 0]
    (transpose S256x256 [1, 0] (m ((c : Thread nD τ).loc main_arg2) : S256x256.Idx → EReal) transposes_S256x256_S256x256_1_0) _
    pads_S256x256_S256x256_000_000 h_S_ (ix2 k o) = _
  rw [pad_nothing, transpose_ix2_apply]

/-- The fourth input array is the bias as one row: its entry (0, o) is `b o`. -/
theorem entry_b (c : Dev nD) (u : Fin 1) (o : Fin 256) : (V m c main_v5 : S1x256.Idx → EReal) (ix2 u o)
    = (m ((c : Thread nD τ).loc main_arg3) : S256.Idx → EReal) (ix1 o) := by
  dsimp only [V]
  simp only [hostOps0, hostOps0_1, hostOps0_2, hostOps0_3, hostOps0_4, hostOps0_5, hostOps0_6, hostOps0_7,
    List.flatten_cons, List.flatten_nil, List.append_nil, List.cons_append, List.nil_append]
  after_results
  show pad S1x256 ![0, 0] ![0, 0] ![0, 0]
    (shapeCast S1x256 (m ((c : Thread nD τ).loc main_arg3) : S256.Idx → EReal) shapeCasts_S256_S1x256) _
    pads_S1x256_S1x256_000_000 h_S_ (ix2 u o) = _
  rw [pad_nothing, shapeCast_a_1a_apply]

end Cert.KernelIdeal.WholeValue

end
-- ==== Proof.KernelValue.lean ====
/-
  The whole array the grid leaves.

  The grid has 8 points. Point `t` holds rows `512 t … 512 t + 511` of `g` (all 4096 columns), the whole of `h`, of
  the transposed weights and of the bias row, and writes rows `512 t … 512 t + 511` of the result (all 256 columns):
  on every axis a block's coordinate in its array is the block's number times the block's size plus the coordinate
  inside the block, and only the row axis of `g` and of the result has a block number other than zero.

  Entry (r, o) of the block point `t` stores depends on row `r` of its row block of `g` — row `512 t + r` of `g` —, on
  all of `h`, on column `o` of the transposed weights — row `o` of `w` — and on entry `o` of the bias, and is
  `max (∑ k, (∑ j, g (512 t + r, j) * h (j, k)) * w (o, k) + b o) 0`: entry (512 t + r, o) of the layer with the nodes
  aggregated first. Row `p` of the result lies in the block of point `p / 512`, so the 8 blocks cover the array and
  the array ends holding the layer.
-/
import proofs.«128712_g2000203924513823_pallasbulk_293_2_alg».proof.Proof.Gen.KernelIdeal.Value
import proofs.«128712_g2000203924513823_pallasbulk_293_2_alg».proof.Proof.Layer
import proofs.«128712_g2000203924513823_pallasbulk_293_2_alg».proof.Proof.KernelValuePayload
import proofs.«128712_g2000203924513823_pallasbulk_293_2_alg».proof.Proof.KernelValueHost

noncomputable section

open scoped BigOperators

namespace Cert.KernelIdeal.WholeValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The offsets of a load or store of a whole block: zero on both axes. -/
theorem zero_offsets : (![0, 0] : Fin 2 → Nat) = fun _ => 0 := funext fun a => by fin_cases a <;> rfl

/-- The layer as the 4096 × 256 array, the nodes aggregated first, of the four arrays as launched. -/
abbrev layer (c : Dev nD) : S4096x256.Idx → EReal :=
  Cert.Layer.whole (Cert.Layer.aggFirst (m ((c.tc : Thread nD τ).loc main_arg0)) (m ((c.tc : Thread nD τ).loc main_arg1))
    (m ((c.tc : Thread nD τ).loc main_arg2)) (m ((c.tc : Thread nD τ).loc main_arg3)))

/-- The block numbers at point `t`: the row blocks of `g` and of the result are number `t` along the rows; every other
    block number is zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of point `t`'s block is row `512 t + r` of the array. -/
def row (t : Fin cfg0.N) (r : Fin 512) : Fin 4096 :=
  ⟨t.val * 512 + r.val, by have h : t.val < 8 := lt_of_lt_of_eq t.isLt N_0; omega⟩

/-! ## The four blocks a point holds, entry by entry -/

/-- Entry (r, j) of point `t`'s row block is `g (512 t + r, j)`. -/
theorem rowBlock_apply (c : Dev nD) (t : Fin cfg0.N) (r : Fin 512) (j : Fin 4096) :
    (iblk m c 0 t : Vec Ideal S512x4096 .f32) (ix2 r j)
      = (m ((c.tc : Thread nD τ).loc main_arg0) : S4096x4096.Idx → EReal) (ix2 (row t r) j) := by
  obtain ⟨e0, e1, -⟩ := block_index t
  unfold iblk
  rw [View.read_apply]
  show (V m c main_v0 : S4096x4096.Idx → EReal) _ = _
  rw [entry_g]
  refine congrArg _ (funext fun a => Fin.ext ?_)
  match a with
  | ⟨0, _⟩ => show win0_0.index t (0 : Fin 2) * 512 + 1 * r.val = t.val * 512 + r.val; rw [e0]; omega
  | ⟨1, _⟩ => show win0_0.index t (1 : Fin 2) * 4096 + 1 * j.val = j.val; rw [e1]; omega

/-- Entry (j, k) of the second block is `h (j, k)`, at every point. -/
theorem features_apply (c : Dev nD) (t : Fin cfg0.N) (j : Fin 4096) (k : Fin 256) :
    (iblk m c 1 t : Vec Ideal S4096x256 .f32) (ix2 j k)
      = (m ((c.tc : Thread nD τ).loc main_arg1) : S4096x256.Idx → EReal) (ix2 j k) := by
  obtain ⟨-, -, e2, e3, -⟩ := block_index t
  unfold iblk
  rw [View.read_apply]
  show (V m c main_v1 : S4096x256.Idx → EReal) _ = _
  rw [entry_h]
  refine congrArg _ (funext fun a => Fin.ext ?_)
  match a with
  | ⟨0, _⟩ => show win0_1.index t (0 : Fin 2) * 4096 + 1 * j.val = j.val; rw [e2]; omega
  | ⟨1, _⟩ => show win0_1.index t (1 : Fin 2) * 256 + 1 * k.val = k.val; rw [e3]; omega

/-- Entry (k, o) of the third block is `w (o, k)`, at every point: the block is the transposed weights. -/
theorem weights_apply (c : Dev nD) (t : Fin cfg0.N) (k o : Fin 256) :
    (iblk m c 2 t : Vec Ideal S256x256 .f32) (ix2 k o)
      = (m ((c.tc : Thread nD τ).loc main_arg2) : S256x256.Idx → EReal) (ix2 o k) := by
  obtain ⟨-, -, -, -, e4, e5, -⟩ := block_index t
  unfold iblk
  rw [View.read_apply]
  refine Eq.trans (congrArg (V m c main_v3 : S256x256.Idx → EReal) (funext fun a => Fin.ext ?_)) (entry_w m c k o)
  match a with
  | ⟨0, _⟩ => show win0_2.index t (0 : Fin 2) * 256 + 1 * k.val = k.val; rw [e4]; omega
  | ⟨1, _⟩ => show win0_2.index t (1 : Fin 2) * 256 + 1 * o.val = o.val; rw [e5]; omega

/-- Entry (0, o) of the fourth block is `b o`, at every point: the block is the bias as one row. -/
theorem bias_apply (c : Dev nD) (t : Fin cfg0.N) (o : Fin 256) :
    (iblk m c 3 t : Vec Ideal S1x256 .f32) (ix2 (0 : Fin 1) o)
      = (m ((c.tc : Thread nD τ).loc main_arg3) : S256.Idx → EReal) (ix1 o) := by
  obtain ⟨-, -, -, -, -, -, e6, e7, -⟩ := block_index t
  unfold iblk
  rw [View.read_apply]
  refine Eq.trans (congrArg (V m c main_v5 : S1x256.Idx → EReal) (funext fun a => Fin.ext ?_)) (entry_b m c 0 o)
  match a with
  | ⟨0, _⟩ => show win0_3.index t (0 : Fin 2) * 1 + 1 * 0 = 0; rw [e6]
  | ⟨1, _⟩ => show win0_3.index t (1 : Fin 2) * 256 + 1 * o.val = o.val; rw [e7]; omega

/-! ## What a point stores -/

/-- Entry (r, o) of the block point `t` stores is entry (512 t + r, o) of the layer. -/
theorem stored_apply (c : Dev nD) (t : Fin cfg0.N) (r : Fin 512) (o : Fin 256) :
    k0_pay1 (F := Ideal) (iblk m c 0 t) (iblk m c 1 t) (iblk m c 2 t) (iblk m c 3 t) (ix2 r o)
      = Cert.Layer.aggFirst (m ((c.tc : Thread nD τ).loc main_arg0)) (m ((c.tc : Thread nD τ).loc main_arg1))
          (m ((c.tc : Thread nD τ).loc main_arg2)) (m ((c.tc : Thread nD τ).loc main_arg3)) (row t r) o := by
  refine (payload_apply (iblk m c 0 t) (iblk m c 1 t) (iblk m c 2 t) (iblk m c 3 t) r o).trans ?_
  unfold Cert.Layer.aggFirst
  rw [bias_apply m c t o]
  refine congrArg (fun s => max (s + _) 0) (Finset.sum_congr rfl fun k _ => ?_)
  rw [weights_apply m c t k o]
  refine congrArg (· * _) (Finset.sum_congr rfl fun j _ => ?_)
  rw [rowBlock_apply m c t r j, features_apply m c t j k]

/-- The same at an index of the block given whole. -/
theorem stored_at (c : Dev nD) (t : Fin cfg0.N) (y : S512x256.Idx) :
    k0_pay1 (F := Ideal) (iblk m c 0 t) (iblk m c 1 t) (iblk m c 2 t) (iblk m c 3 t) y
      = Cert.Layer.aggFirst (m ((c.tc : Thread nD τ).loc main_arg0)) (m ((c.tc : Thread nD τ).loc main_arg1))
          (m ((c.tc : Thread nD τ).loc main_arg2)) (m ((c.tc : Thread nD τ).loc main_arg3)) (row t (y 0)) (y 1) := by
  obtain ⟨r, o, rfl⟩ : ∃ (r : Fin 512) (o : Fin 256), y = ix2 r o := ⟨y 0, y 1, eq_ix2 y⟩
  exact stored_apply m c t r o

/-- What point `t` writes back is block `t` of the layer: rows `512 t … 512 t + 511`. -/
theorem flushed_eq (c : Dev nD) (t : Fin cfg0.N) :
    (dats m 0 c).flushed 4 t = ((cfg0.win 4).blk t).view.read (Elt Ideal) (layer m c) := by
  obtain ⟨-, -, -, -, -, -, -, -, e8, e9⟩ := block_index t
  rw [Value.flushed4]
  unfold out0_4
  rw [View.canon_unit_zero zero_offsets]
  simp only [View.ld_unit_zero (S := S512x4096) zero_offsets, View.ld_unit_zero (S := S4096x256) zero_offsets,
    View.ld_unit_zero (S := S256x256) zero_offsets, View.ld_unit_zero (S := S1x256) zero_offsets]
  funext y
  show k0_pay1 (F := Ideal) (iblk m c 0 t) (iblk m c 1 t) (iblk m c 2 t) (iblk m c 3 t) y
    = layer m c (((cfg0.win 4).blk t).view.emb y)
  refine (stored_at m c t y).trans ?_
  show Cert.Layer.aggFirst _ _ _ _ (row t (y 0)) (y 1)
    = Cert.Layer.aggFirst _ _ _ _ ((((cfg0.win 4).blk t).view.emb y) 0) ((((cfg0.win 4).blk t).view.emb y) 1)
  have h0 : ((((cfg0.win 4).blk t).view.emb y) 0 : Fin 4096) = row t (y 0) :=
    Fin.ext (by show win0_4.index t (0 : Fin 2) * 512 + 1 * (y 0).val = t.val * 512 + (y 0).val; rw [e8]; omega)
  have h1 : ((((cfg0.win 4).blk t).view.emb y) 1 : Fin 256) = y 1 :=
    Fin.ext (by show win0_4.index t (1 : Fin 2) * 256 + 1 * (y 1).val = (y 1).val; rw [e9]; omega)
  rw [h0, h1]

/-! ## The blocks cover the array -/

/-- An index of the result is in point `t`'s block iff each coordinate is in the block's range on its axis. -/
theorem mem_block (t : Fin cfg0.N) (i : S4096x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v6).slice (win0_4.rect t)).set ↔ _
  rw [View.set_slice_whole, Rect.mem_set_unit]
  exact Iff.rfl

/-- Row `p` of the result is in the block of point `p / 512`, and every point writes its block back. -/
theorem covered (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  let t : Fin cfg0.N := ⟨(i 0).val / 512, by rw [show cfg0.N = 8 from N_0]; omega⟩
  obtain ⟨-, -, -, -, -, -, -, -, e8, e9⟩ := block_index t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e8]; show (i 0).val / 512 * 512 ≤ (i 0).val ∧ (i 0).val < (i 0).val / 512 * 512 + 512; omega
  | ⟨1, _⟩ =>
    show win0_4.index t (1 : Fin 2) * 256 ≤ (i 1).val ∧ (i 1).val < win0_4.index t (1 : Fin 2) * 256 + 256
    rw [e9]; omega

/-! ## The array after the run -/

/-- After the last point the result array holds the layer. -/
theorem final (c : Dev nD) : (dats m 0 c).arrAt 4 cfg0.N = layer m c :=
  (dats m 0 c).arrAt_eq_of_cover 4 (layer m c) (fun t _ => flushed_eq m c t) covered

/-- Every weakly fair execution of the program ends with the result array holding the layer, the nodes aggregated
    first, of the four argument arrays as launched, and with those four arrays unchanged. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v6)
        = Cert.Layer.whole (Cert.Layer.aggFirst (m ((c.tc : Thread Cert.KernelIdeal.nD Cert.KernelIdeal.τ).loc Cert.KernelIdeal.main_arg0))
            (m ((c.tc : Thread _ _).loc Cert.KernelIdeal.main_arg1)) (m ((c.tc : Thread _ _).loc Cert.KernelIdeal.main_arg2))
            (m ((c.tc : Thread _ _).loc Cert.KernelIdeal.main_arg3)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run defs _ _).mono (fun r h c => ⟨(h c).1.trans (final m c), (h c).2⟩) (Value.run_blocks m ρ)

end Cert.KernelIdeal.WholeValue

end
-- ==== Proof.RefProject.lean ====
/-
  The reference's first kernel: the projection P = h · wᵀ, one 256-row block of h per grid point.

  The grid has 16 points. At point t the kernel is handed rows 256·t … 256·t + 255 of h (a 256 × 256 block,
  window 0) and the whole of wᵀ (window 1, the same block at every point), and stores into the output's block
  (window 2, rows 256·t … of P) the product of the two, accumulated into zero. Nothing else is read or kept
  between points, so what a point leaves in the output's buffer is one function of the two blocks it was handed.
  Everything is stated at a parameter `V`: the contents of the core's buffers when the region is entered.
-/
import proofs.«128712_g2000203924513823_pallasbulk_293_2_alg».proof.Proof.Gen.ReferenceIdeal.Launch
import proofs.«128712_g2000203924513823_pallasbulk_293_2_alg».proof.Proof.Gen.ReferenceIdeal.Skeleton
import proofs.«128712_g2000203924513823_pallasbulk_293_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the kernel is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h's rows is in its buffer at every point: an input is never stored into, and a block not fetched
    anew at a point is the block already there. -/
theorem before_h_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for wᵀ, fetched once: its block never moves. -/
theorem before_wt_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

/-- The whole 256 × 256 buffer as a rectangle: every load and the one store of the body go through it. -/
abbrev rAll : Rect S256x256 := Rect.unit (s := S256x256) ![0, 0] S256x256.size inb_S256x256_S256x256_0_0

/-- The output's buffer after the body: the product of the two blocks, stored whole. -/
def outP (x0 x1 : Vec F S256x256 .f32) : Vec F S256x256 .f32 :=
  View.canon [⟨rAll, k0_pay1 (View.ld x0 rAll) (View.ld x1 rAll)⟩]

/-- The one store covers the buffer. -/
theorem cover_outP (p0 : Vec F S256x256 .f32) (y : S256x256.Idx) :
    ∃ pc ∈ ([⟨rAll, p0⟩] : List (View.Piece (Elt F) S256x256 .f32)), y ∈ pc.1.set :=
  View.cover_of_tiled [⟨rAll, p0⟩] S256x256.size (by rfl) y

/-! ## The body's triple -/

set_option maxHeartbeats 1000000 in
/-- The body on whole buffers, the two inputs at contents `x0`, `x1` and the output's at anything, runs to the
    continuation with the inputs as they were and the output at `outP x0 x1`. -/
theorem sound_kernel (c : Dev nD) (E : Set ℕ) (i : grid0.Coords) (arg1 : Memref sig .tc .vmem S256x256 .f32) (harg1 : arg1.IsWhole)
    (arg2 : Memref sig .tc .vmem S256x256 .f32) (harg2 : arg2.IsWhole) (arg3 : Memref sig .tc .vmem S256x256 .f32) (harg3 : arg3.IsWhole)
    (x0 x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outP x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_outP _)

/-! ## The proof data -/

/-- The proof data of the projection's pipeline on core `c`: the arrays as the region finds them; after the body
    at point `t` each input's buffer at its block and the output's at the product of the two blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outP (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_h (c : Dev nD) (t : Fin cfg0.N) : (dat V c).after 0 t = iblk V c 0 t := by dsimp only [dat]
theorem after_wt (c : Dev nD) (t : Fin cfg0.N) : (dat V c).after 1 t = iblk V c 1 t := by dsimp only [dat]
theorem after_P (c : Dev nD) (t : Fin cfg0.N) : (dat V c).after 2 t = outP (iblk V c 0 t) (iblk V c 1 t) := by dsimp only [dat]

theorem before_h (c : Dev nD) (t : Fin cfg0.N) (d) : (dat V c).before 0 t d = iblk V c 0 t :=
  before_h_of V (dat V c) (A_eq V c 0) (after_h V c) t d
theorem before_wt (c : Dev nD) (t : Fin cfg0.N) (d) : (dat V c).before 1 t d = iblk V c 1 t :=
  before_wt_of V (dat V c) (A_eq V c 1) (after_wt V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_h, before_wt]
  rw [show (dat V c).Φ t.succ = (dat V c).Φ t.castSucc from rfl,
    show (dat V c).owesAt () t.succ = (dat V c).owesAt () t.castSucc from rfl,
    after_h, after_wt, after_P]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.ReferenceIdeal.Project

end
-- ==== Proof.RefAggRuns.lean ====
/-
  The reference's second kernel: the aggregation O = max (g · P + b) 0, accumulated over 16 column blocks of g.

  The grid is 16 × 16: point (i, k) is handed the 256 × 256 block (i, k) of g (window 0), rows 256·k … of P
  (window 1), the bias row (window 2, the same block at every point) and the output's block of rows 256·i …
  (window 3, the same for the 16 points of a row), and a 256 × 256 accumulator of its own that it keeps from point
  to point. At k = 0 it first stores zeros into the accumulator; at every k it adds the product of its two blocks
  to the accumulator; at k = 15 it also stores max (accumulator + bias) 0 into the output's buffer, which is written
  back to the array at those points only. So a point is in one of three cases: the first of its row (reset, then
  add), a middle one (add), the last (add, then finish).

  Here: the two branch conditions as functions of the point, decided over the grid; where the output's window is
  untouched; and the body's run in each of the three cases, with the pieces its stores leave in the accumulator
  and in the output's buffer found by running it.
-/
import proofs.«128712_g2000203924513823_pallasbulk_293_2_alg».proof.Proof.Gen.ReferenceIdeal.Launch
import proofs.«128712_g2000203924513823_pallasbulk_293_2_alg».proof.Proof.Gen.ReferenceIdeal.Skeleton
import proofs.«128712_g2000203924513823_pallasbulk_293_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The two branch conditions -/

/-- "This is the first point of its row" (k = 0), as the body computes it. -/
abbrev isFirst (i : grid1.Coords) : Prop := (Scalar.cmpi .ne (Scalar.extui (Scalar.cmpi .eq (BitVec.ofNat 32 (i 1).val) 0#32)) 0#32) = 1#1
/-- It holds at the points ≡ 0 (mod 16). -/
theorem isFirst_iff : ∀ t : Fin cfg1.N, isFirst (grid1.coords t) ↔ t.val % 16 = 0 :=
  (by decide +kernel : ∀ t : Fin grid1.N, isFirst (grid1.coords t) ↔ t.val % 16 = 0)

/-- "This is the last point of its row" (k = 15), as the body computes it. -/
abbrev isLast (i : grid1.Coords) : Prop := k1_cond2 i = 1#1
/-- It holds at the points ≡ 15 (mod 16). -/
theorem isLast_iff : ∀ t : Fin cfg1.N, isLast (grid1.coords t) ↔ t.val % 16 = 15 :=
  (by decide +kernel : ∀ t : Fin grid1.N, isLast (grid1.coords t) ↔ t.val % 16 = 15)

/-! ## Where the windows are untouched -/

theorem live_g : ∀ t : Fin cfg1.N, cfg1.idle 0 (grid1.coords t) = false := by decide +kernel
theorem live_P : ∀ t : Fin cfg1.N, cfg1.idle 1 (grid1.coords t) = false := by decide +kernel
theorem live_b : ∀ t : Fin cfg1.N, cfg1.idle 2 (grid1.coords t) = false := by decide +kernel
/-- Before the last point of a row the body stores nothing into the output's buffer, -/
theorem idle_out : ∀ t : Fin cfg1.N, ¬isLast (grid1.coords t) → cfg1.idle 3 (grid1.coords t) = true := by decide +kernel
/-- and the buffer is not written back there; -/
theorem noFlush_out : ∀ t : Fin cfg1.N, ¬isLast (grid1.coords t) → (cfg1.win 3).flush t = false := by decide +kernel
/-- at the last point it does store into it. -/
theorem live_out : ∀ t : Fin cfg1.N, isLast (grid1.coords t) → cfg1.idle 3 (grid1.coords t) = false := by decide +kernel

/-! ## The buffers the body is called with -/

abbrev ms0 (t : Fin cfg1.N) : Memref sig .tc .vmem S256x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x256 .f32 := win1_3.stage (cfg1.slots t 3)
abbrev hs3 (t : Fin cfg1.N) : (ms3 t).IsWhole := hstage1_3 ((cfg1.slots t 3).cast nbuf1_3)
/-- The accumulator: a whole buffer of the kernel's own. -/
abbrev accM : Memref sig .tc .vmem S256x256 .f32 := Memref.whole cc1_scratch0
/-- The accumulator and the output's buffer as views: what they hold is stated through them. -/
abbrev VAcc : View sig .tc .vmem S256x256 .f32 := accM.view
abbrev VOut : View sig .tc .vmem S256x256 .f32 := (Memref.whole cc1_stg3_0 : Memref sig .tc .vmem S256x256 .f32).view

/-- The shape of the region's invariant: the other kernel's five staging buffers at some contents, the accumulator
    as `S` says, and the generator register at some state. -/
abbrev others (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- When nothing is said of the accumulator it is there at some contents. -/
theorem PhiA_eq (c : Dev nD) :
    (Pipeline.ΦA spec1 c : sProp 𝕄) = others c (iprop(∃ d, owns (c : Thread nD τ) accM fullShare d)) := by
  unfold Pipeline.ΦA others; rw [scopedRest1_eq]; simp only [accM, owns_whole]; try rfl

/-! ## The body's run, case by case -/

set_option maxHeartbeats 2000000 in
/-- FIRST point of a row: the accumulator at anything; the run leaves the two blocks as they were and the accumulator
    with the pieces `LS` written. (The bias and the output's buffer are not touched: they stay outside.) -/
noncomputable def runFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 2000000 in
/-- MIDDLE point of a row: the accumulator at `xs`, what the point before left. -/
noncomputable def runMiddle (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 : Vec F S256x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 2000000 in
/-- LAST point of a row: the accumulator at `xs`, the output's buffer at anything; the run leaves the output's
    buffer with the pieces `LO` written and the accumulator with `LS`. -/
noncomputable def runLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) :
    Σ' (LO : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%do', %fo, -, Ho⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [Ho]; · iexists _; iexact Ho
    iexists _; iexact HS

end Cert.ReferenceIdeal.Aggregate

end
-- ==== Proof.RefAggregate.lean ====
/-
  The aggregation kernel's proof data and body obligation.

  What the accumulator holds after a point is defined by recursion on the point: at the first point of a row what
  the reset-then-add run leaves; at a later point what the add run leaves over the accumulator of the point before.
  The output's buffer is named only at the last point of a row (what the finishing run stores); at the other points
  the body does not touch it. The region's invariant carries the accumulator at those contents from point to point.
-/
import proofs.«128712_g2000203924513823_pallasbulk_293_2_alg».proof.Proof.RefAggRuns

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the kernel is handed -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's block is in its buffer at every point: an input is never stored into, and a block not fetched anew
    is the block already there. For g's block, -/
theorem before_g_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- for P's, -/
theorem before_P_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for the bias row. -/
theorem before_b_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The first case's pieces cover the accumulator. -/
theorem scoverFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) (y : S256x256.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S256x256.size (by sl_kernel_rfl) y

/-- What the first case leaves in the accumulator. -/
def soutFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) : Vec F S256x256 .f32 :=
  VAcc.read (Elt F) (VAcc.writes (Elt F) VAcc.junk (runFirst c i arg2 harg2 arg3 harg3 arg4 harg4 arg5 harg5 arg6 harg6 hc0 hc1 x0 x1).1)

theorem scoverMiddle (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) (y : S256x256.Idx) :
    ∃ pc ∈ (runMiddle c i arg2 harg2 arg3 harg3 arg4 harg4 arg5 harg5 arg6 harg6 hc0 hc1 x0 x1 xs).1, y ∈ pc.1.set :=
  View.cover_of_tiledL (runMiddle c i arg2 harg2 arg3 harg3 arg4 harg4 arg5 harg5 arg6 harg6 hc0 hc1 x0 x1 xs).1 S256x256.size (by sl_kernel_rfl) y

/-- What a middle case leaves in the accumulator, over `xs`. -/
def soutMiddle (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) : Vec F S256x256 .f32 :=
  VAcc.read (Elt F) (VAcc.writes (Elt F) VAcc.junk (runMiddle c i arg2 harg2 arg3 harg3 arg4 harg4 arg5 harg5 arg6 harg6 hc0 hc1 x0 x1 xs).1)

theorem coverOutLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S256x256.size (by sl_kernel_rfl) y

/-- What the last case stores in the output's buffer. -/
def outLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) : Vec F S256x256 .f32 :=
  VOut.read (Elt F) (VOut.writes (Elt F) VOut.junk (runLast c i arg2 harg2 arg3 harg3 arg4 harg4 arg5 harg5 arg6 harg6 hc0 hc1 x0 x1 x2 xs).1)

theorem scoverLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S256x256.size (by sl_kernel_rfl) y

/-- What the last case leaves in the accumulator. -/
def soutLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) : Vec F S256x256 .f32 :=
  VAcc.read (Elt F) (VAcc.writes (Elt F) VAcc.junk (runLast c i arg2 harg2 arg3 harg3 arg4 harg4 arg5 harg5 arg6 harg6 hc0 hc1 x0 x1 x2 xs).2.1)

/-- The output's buffer where the body does not store into it: a name nothing consults (the buffer is neither
    written back nor read there). -/
def untouched : Vec F S256x256 .f32 := VOut.read (Elt F) (VOut.writes (Elt F) VOut.junk [])

/-! ## The accumulation -/

/-- What the output's buffer and the accumulator hold after the body at position `n`: the case of the point, run
    at the point's buffers and blocks, a later point of a row over the accumulator of the point before. -/
def outsAt (c : Dev nD) : (n : ℕ) → n < cfg1.N → Vec F S256x256 .f32 × Vec F S256x256 .f32
  | 0, hn => (untouched, soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (untouched, soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (untouched, soutMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

/-- At the first point of a row. -/
theorem outsAt_first (c : Dev nD) (t : Fin cfg1.N) (h0 : t.val % 16 = 0) (h1 : ¬t.val % 16 = 15) :
    outsAt V c t.val t.isLt = (untouched, soutFirst c (grid1.coords t) (ms0 t) (hs0 t) (ms1 t) (hs1 t) (ms2 t) (hs2 t) (ms3 t) (hs3 t) accM (Memref.isWhole_whole _) ((isFirst_iff t).mpr h0) (fun h => h1 ((isLast_iff t).mp h)) (iblk V c 0 t) (iblk V c 1 t)) := by
  obtain ⟨n, hn⟩ := t
  cases n with
  | zero => exact rfl
  | succ n => exact (dif_pos h0).trans ((dif_neg h1).trans rfl)

/-- At a middle point, over what the point before left. -/
theorem outsAt_middle (c : Dev nD) (t : Fin cfg1.N) (h0 : ¬t.val % 16 = 0) (h1 : ¬t.val % 16 = 15) :
    outsAt V c t.val t.isLt = (untouched, soutMiddle c (grid1.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point of a row, over what the point before left. -/
theorem outsAt_last (c : Dev nD) (t : Fin cfg1.N) (h0 : ¬t.val % 16 = 0) (h1 : t.val % 16 = 15) :
    outsAt V c t.val t.isLt = (outLast c (grid1.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2, soutLast c (grid1.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point nothing is said of the accumulator; afterwards it holds what the
    point before left. -/
def PhiS (c : Dev nD) : (n : ℕ) → n ≤ cfg1.N → sProp 𝕄
  | 0, _ => Pipeline.ΦA spec1 c
  | n + 1, hn => others c (owns (c : Thread nD τ) accM fullShare ((outsAt V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = others c (owns (c : Thread nD τ) accM fullShare ((outsAt V c n hn).2)) := rfl

theorem PhiS_pos (c : Dev nD) (n : ℕ) (h : n ≤ cfg1.N) (hz : n ≠ 0) :
    PhiS V c n h = others c (owns (c : Thread nD τ) accM fullShare ((outsAt V c (n - 1) (by omega)).2)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_g (c : Dev nD) (t : Fin cfg1.N) : (dat V c).after 0 t = iblk V c 0 t := by dsimp only [dat]
theorem after_P (c : Dev nD) (t : Fin cfg1.N) : (dat V c).after 1 t = iblk V c 1 t := by dsimp only [dat]
theorem after_b (c : Dev nD) (t : Fin cfg1.N) : (dat V c).after 2 t = iblk V c 2 t := by dsimp only [dat]
theorem after_out (c : Dev nD) (t : Fin cfg1.N) : (dat V c).after 3 t = (outsAt V c t.val t.isLt).1 := by dsimp only [dat]

theorem before_g (c : Dev nD) (t : Fin cfg1.N) (d) : (dat V c).before 0 t d = iblk V c 0 t :=
  before_g_of V (dat V c) (A_eq V c 0) (after_g V c) t d
theorem before_P (c : Dev nD) (t : Fin cfg1.N) (d) : (dat V c).before 1 t d = iblk V c 1 t :=
  before_P_of V (dat V c) (A_eq V c 1) (after_P V c) t d
theorem before_b (c : Dev nD) (t : Fin cfg1.N) (d) : (dat V c).before 2 t d = iblk V c 2 t :=
  before_b_of V (dat V c) (A_eq V c 2) (after_b V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the closed forms say which case the point is in;
    the invariant hands the body the accumulator at what the point before left (at anything before the first
    point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_g, before_P, before_b]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_g t], after_g]
  rw [show (dat V c).leavesExact 1 t = owns (c : Thread nD τ) (ms1 t) fullShare ((dat V c).after 1 t) from by
    unfold Dat.leavesExact; rw [live_P t], after_P]
  rw [show (dat V c).leavesExact 2 t = owns (c : Thread nD τ) (ms2 t) fullShare ((dat V c).after 2 t) from by
    unfold Dat.leavesExact; rw [live_b t], after_b]
  have hN : t.val < 256 := lt_of_lt_of_eq t.isLt (show cfg1.N = 256 from N_1)
  by_cases h0 : t.val % 16 = 0
  · have h1 : ¬t.val % 16 = 15 := by omega
    rw [Dat.leavesExact_idle (dat V c) 3 t (idle_out t (fun h => h1 ((isLast_iff t).mp h))) (noFlush_out t (fun h => h1 ((isLast_iff t).mp h)))]
    rw [outsAt_first V c t h0 h1]
    unfold soutFirst; (try dsimp only)
    by_cases hz : t.val = 0
    · rw [PhiS_castSucc V c t, PhiS_zero V c _ _ hz, PhiA_eq]
      unfold others
      iintro ⟨⟨⟨HA, HB, HC, HD, HE, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => h1 ((isLast_iff t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (scoverFirst c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold others
      iintro ⟨⟨⟨HA, HB, HC, HD, HE, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => h1 ((isLast_iff t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (scoverFirst c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat V c).leavesExact 3 t = owns (c : Thread nD τ) (ms3 t) fullShare ((dat V c).after 3 t) from by
        unfold Dat.leavesExact; rw [live_out t ((isLast_iff t).mpr h1)], after_out]
      rw [outsAt_last V c t h0 h1]
      unfold outLast soutLast; (try dsimp only)
      rw [PhiS_castSucc V c t, PhiS_pos V c _ _ hz]
      unfold others
      iintro ⟨⟨⟨HA, HB, HC, HD, HE, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (scoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dat V c) 3 t (idle_out t (fun h => h1 ((isLast_iff t).mp h))) (noFlush_out t (fun h => h1 ((isLast_iff t).mp h)))]
      rw [outsAt_middle V c t h0 h1]
      unfold soutMiddle; (try dsimp only)
      rw [PhiS_castSucc V c t, PhiS_pos V c _ _ hz]
      unfold others
      iintro ⟨⟨⟨HA, HB, HC, HD, HE, HS⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((isFirst_iff t).mp h)) (fun h => h1 ((isLast_iff t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (scoverMiddle c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The pipeline library's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives it back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA_eq]
  unfold others
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

end Cert.ReferenceIdeal.Aggregate

end
-- ==== Proof.RefRun.lean ====
/-
  The reference program from launch to return: eight short stretches of host operations (the zero-width pads, the
  transpose of w, the reshape of b), then the projection kernel, then the aggregation kernel.

  Between two items a core holds every unscoped buffer at known contents: after the host stretches, the operations'
  results folded over the launch memory; after a kernel, its arrays at what its write-backs leave and every other
  buffer as entered. Each kernel is entered from the contents the item before it left, so the aggregation kernel
  finds in P's buffer what the projection kernel wrote. At the end the result array holds what the aggregation
  kernel's write-backs leave, and the four argument arrays hold what they held at launch: no item writes them.
-/
import proofs.«128712_g2000203924513823_pallasbulk_293_2_alg».proof.Proof.RefProject
import proofs.«128712_g2000203924513823_pallasbulk_293_2_alg».proof.Proof.RefAggregate
import proofs.«128712_g2000203924513823_pallasbulk_293_2_alg».proof.Proof.Gen.ReferenceIdeal.Regions

set_option maxRecDepth 16384

noncomputable section

namespace Cert.ReferenceIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What the projection kernel finds: the launch memory after the eight host stretches, read at a TensorCore
    reference. -/
abbrev E8 : (c : Dev nD) → (b : Ref sig .tc) → Buf (Elt F) ((c : Thread nD τ).loc b) := fun c b => V8 m c b

/-- After the projection kernel: its arrays at what the pipeline leaves, every other buffer as entered. -/
def W9 (c : Dev nD) : Valuation τ sig (Elt F) :=
  Pipeline.withArrays spec0 c (V8 m c) fun w => (Project.dat (E8 m) c).arrAt w cfg0.N
theorem W9_arr (c : Dev nD) (w : Fin cfg0.W) :
    W9 m c (Proc.devRef .tc (Pipeline.arrRef spec0 w)) = (Project.dat (E8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = V8 m c (Proc.devRef .tc b) := by
  unfold W9; exact Pipeline.withArrays_of_ne spec0 c _ _ b hb
/-- The same read at a TensorCore reference: what the aggregation kernel finds. -/
abbrev E9 : (c : Dev nD) → (b : Ref sig .tc) → Buf (Elt F) ((c : Thread nD τ).loc b) := fun c b => W9 m c b
theorem hF0 (c : Dev nD) (w : Fin cfg0.W) : (Project.dat (E8 m) c).arrAt w cfg0.N = E9 m c (Pipeline.arrRef spec0 w) :=
  (W9_arr m c w).symm
theorem hrest0 (c : Dev nD) : ∀ b, b ∉ Finset.univ.image (Pipeline.arrRef spec0) → E9 m c b = E8 m c b :=
  fun b hb => W9_of_ne m c b fun w e => hb (Finset.mem_image.mpr ⟨w, Finset.mem_univ _, e⟩)

/-- After the aggregation kernel. -/
def W10 (c : Dev nD) : Valuation τ sig (Elt F) :=
  Pipeline.withArrays spec1 c (W9 m c) fun w => (Aggregate.dat (E9 m) c).arrAt w cfg1.N
theorem W10_arr (c : Dev nD) (w : Fin cfg1.W) :
    W10 m c (Proc.devRef .tc (Pipeline.arrRef spec1 w)) = (Aggregate.dat (E9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E10 : (c : Dev nD) → (b : Ref sig .tc) → Buf (Elt F) ((c : Thread nD τ).loc b) := fun c b => W10 m c b
theorem hF1 (c : Dev nD) (w : Fin cfg1.W) : (Aggregate.dat (E9 m) c).arrAt w cfg1.N = E10 m c (Pipeline.arrRef spec1 w) :=
  (W10_arr m c w).symm
theorem hrest1 (c : Dev nD) : ∀ b, b ∉ Finset.univ.image (Pipeline.arrRef spec1) → E10 m c b = E9 m c b :=
  fun b hb => W10_of_ne m c b fun w e => hb (Finset.mem_image.mpr ⟨w, Finset.mem_univ _, e⟩)

/-! ### The arguments end as launched -/

theorem W10_main_arg0 (c : Dev nD) : W10 m c (Proc.devRef .tc main_arg0) = m ((c : Thread nD τ).loc main_arg0) :=
  (W10_of_ne m c main_arg0 (by decide)).trans <| (W9_of_ne m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W10_main_arg1 (c : Dev nD) : W10 m c (Proc.devRef .tc main_arg1) = m ((c : Thread nD τ).loc main_arg1) :=
  (W10_of_ne m c main_arg1 (by decide)).trans <| (W9_of_ne m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W10_main_arg2 (c : Dev nD) : W10 m c (Proc.devRef .tc main_arg2) = m ((c : Thread nD τ).loc main_arg2) :=
  (W10_of_ne m c main_arg2 (by decide)).trans <| (W9_of_ne m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W10_main_arg3 (c : Dev nD) : W10 m c (Proc.devRef .tc main_arg3) = m ((c : Thread nD τ).loc main_arg3) :=
  (W10_of_ne m c main_arg3 (by decide)).trans <| (W9_of_ne m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Project.dat (E8 m) c
  | ⟨1, _⟩ => fun c => Aggregate.dat (E9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as an item: every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The kernels as items -/

set_option backward.isDefEq.respectTransparency.types false in
/-- The projection kernel: entered from every unscoped buffer at the host stretches' result, left with its arrays at
    what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (E8 m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E8 m c) (E9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel: entered from what the projection kernel left, left with its arrays at what its
    write-backs leave. The invariant takes the scoped rest in whole and gives it back whole: the accumulator's
    contents are named only between the first and the last point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Aggregate.body_obligation (E9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Aggregate.hin (E9 m) c)
    unfold Pipeline.ΦA
    iintro ⟨Hp, -, Hr⟩
    isplitl [Hr]; · iexact Hr
    iexact Hp
  hout c := by
    refine (Aggregate.hout (E9 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .region (reg0 m),
    .region (reg1 m) ]

theorem main_run (c : Dev nD) : main (F := F) c = Pipeline.Seg.run (segs m) := (main_chain c).trans (by chain_rfl)

set_option backward.isDefEq.respectTransparency.types false in
/-- THE REFERENCE'S RUN: from any memory with zero counters every weakly fair execution terminates, nothing
    faulting; the result array ends at what the aggregation kernel's write-backs leave, from the contents the
    projection kernel left; the argument arrays end as launched. -/
theorem run_blocks : θ_run defs (onTc (τ := τ) (main (F := F))) ⟨m, fun _ => 0, ρ⟩ (fun r => ∀ c : Dev nD,
      r.2.mem ((c.tc : Thread nD τ).loc main_v7) = (Aggregate.dat (E9 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨(h c _ (mem_uc main_v7 (by decide))).trans (W10_arr m c 3),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c)⟩)

end Cert.ReferenceIdeal.Whole

end
-- ==== Proof.RefAggCases.lean ====
/-
  What the aggregation kernel's three cases leave, as the body's own arithmetic.

  Reading the stored pieces back: the first point of a row leaves in the accumulator the zero block plus the product
  of its two blocks; a later point leaves the accumulator it found plus the product of its two blocks; the last
  point also stores, in the output's buffer, the maximum of (that accumulator plus the bias row, repeated down the
  rows) and zero. So along a row of 16 points the accumulator is a running sum of 16 block products, started at
  zero, and the output's block is its finished value.
-/
import proofs.«128712_g2000203924513823_pallasbulk_293_2_alg».proof.Proof.RefAggregate
import Idealize.ShloMosaic.Lib.Pipeline.Value
import Idealize.ShloMosaic.Lib.ValueIdx
import Idealize.ShloMosaic.PureOps.Ideal.Laws

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

/-- The offsets of the whole-buffer rectangle are zero. -/
theorem hz : (![0, 0] : Fin 2 → Nat) = fun _ => 0 := funext fun a => by fin_cases a <;> rfl

/-- One block product added to an accumulator: what every point does to the accumulator it starts from. -/
abbrev step (acc x0 x1 : Vec F S256x256 .f32) : Vec F S256x256 .f32 := k1_pay2 acc x0 x1

/-- The first point of a row starts from the zero block. -/
theorem soutFirst_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) :
    soutFirst c i arg2 harg2 arg3 harg3 arg4 harg4 arg5 harg5 arg6 harg6 hc0 hc1 x0 x1 = step (k1_pay1 (F := F)) x0 x1 := by
  unfold soutFirst
  rw [View.read_writes_eq_canon _ _ _ (scoverFirst c i arg2 harg2 arg3 harg3 arg4 harg4 arg5 harg5 arg6 harg6 hc0 hc1 x0 x1)]
  unfold runFirst
  dsimp only
  sl_unfold_words
  rw [View.canon_cons_unit_zero (S := S256x256) hz, View.readCov_unit_zero (S := S256x256) _ hz]
  simp only [View.readAt_eq_ld, harg2.read_unread, harg3.read_unread, View.ld_unit_zero (S := S256x256) hz]

/-- A middle point starts from what the point before left. -/
theorem soutMiddle_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) :
    soutMiddle c i arg2 harg2 arg3 harg3 arg4 harg4 arg5 harg5 arg6 harg6 hc0 hc1 x0 x1 xs = step xs x0 x1 := by
  unfold soutMiddle
  rw [View.read_writes_eq_canon _ _ _ (scoverMiddle c i arg2 harg2 arg3 harg3 arg4 harg4 arg5 harg5 arg6 harg6 hc0 hc1 x0 x1 xs)]
  unfold runMiddle
  dsimp only
  sl_unfold_words
  rw [View.canon_unit_zero (S := S256x256) hz]
  simp only [View.readAt_eq_ld, harg2.read_unread, harg3.read_unread, harg6.read_unread, View.ld_unit_zero (S := S256x256) hz]

/-- So does the last point, -/
theorem soutLast_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) :
    soutLast c i arg2 harg2 arg3 harg3 arg4 harg4 arg5 harg5 arg6 harg6 hc0 hc1 x0 x1 x2 xs = step xs x0 x1 := by
  unfold soutLast
  rw [View.read_writes_eq_canon _ _ _ (scoverLast c i arg2 harg2 arg3 harg3 arg4 harg4 arg5 harg5 arg6 harg6 hc0 hc1 x0 x1 x2 xs)]
  unfold runLast
  dsimp only
  sl_unfold_words
  rw [View.canon_unit_zero (S := S256x256) hz]
  simp only [View.readAt_eq_ld, harg2.read_unread, harg3.read_unread, harg6.read_unread, View.ld_unit_zero (S := S256x256) hz]

/-- which then finishes the row: the output's buffer takes max (accumulator + bias) 0. -/
theorem outLast_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) :
    outLast c i arg2 harg2 arg3 harg3 arg4 harg4 arg5 harg5 arg6 harg6 hc0 hc1 x0 x1 x2 xs = k1_pay3 (step xs x0 x1) x2 := by
  unfold outLast
  rw [View.read_writes_eq_canon _ _ _ (coverOutLast c i arg2 harg2 arg3 harg3 arg4 harg4 arg5 harg5 arg6 harg6 hc0 hc1 x0 x1 x2 xs)]
  unfold runLast
  dsimp only
  sl_unfold_words
  rw [View.canon_unit_zero (S := S256x256) hz]
  simp only [View.readAt_eq_ld, harg2.read_unread, harg3.read_unread, harg4.read_unread, harg6.read_unread, View.ld_unit_zero (S := S256x256) hz, View.ld_unit_zero (S := S1x256) hz, View.readCov_unit_zero (S := S256x256) _ hz]

end Cert.ReferenceIdeal.Aggregate

end
-- ==== Proof.RefAggEntry.lean ====
/-
  The aggregation kernel's arithmetic at one entry, over the extended reals.

  The product of two 256 × 256 blocks accumulated into zero is, at entry (r, q), the sum over k of the left block's
  (r, k) times the right block's (k, q). One accumulation step adds that sum to the accumulator's entry; the zero block
  is zero everywhere; the finishing step takes the maximum of zero and the accumulator's entry plus the bias row's
  entry q.
-/
import proofs.«128712_g2000203924513823_pallasbulk_293_2_alg».proof.Proof.RefAggCases
import Idealize.ShloMosaic.Lib.ValueLayout

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.ValueIdx
open scoped BigOperators

/-- The product of two 256 × 256 blocks into zero, at an entry. -/
theorem prod_apply (A B : FVec Ideal S256x256 .f32) (a b : Fin 256) :
    matmul dot_S256x256_S256x256_S256x256_1_0_0_1_n_n none A B (constant (F := Ideal) S256x256 .f32 0x00000000#32) (ix2 a b)
      = ∑ k : Fin 256, A (ix2 a k) * B (ix2 k b) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have c2 := contrEquiv1_symm_val dot_S256x256_S256x256_S256x256_1_0_0_1_n_n 256 rfl rfl k
  have l2 : (dot_S256x256_S256x256_S256x256_1_0_0_1_n_n).lhsIdx (ix2 a b) ((contrEquiv1 dot_S256x256_S256x256_S256x256_1_0_0_1_n_n 256 rfl rfl).symm k) = ix2 a k := by
    funext ax; apply Fin.ext
    match ax with
    | ⟨0, _⟩ => simp [DotDims.lhsIdx, dot_S256x256_S256x256_S256x256_1_0_0_1_n_n]; rfl
    | ⟨1, _⟩ => simp [DotDims.lhsIdx, dot_S256x256_S256x256_S256x256_1_0_0_1_n_n]; exact c2
  have r2 : (dot_S256x256_S256x256_S256x256_1_0_0_1_n_n).rhsIdx (ix2 a b) ((contrEquiv1 dot_S256x256_S256x256_S256x256_1_0_0_1_n_n 256 rfl rfl).symm k) = ix2 k b := by
    funext ax; apply Fin.ext
    match ax with
    | ⟨0, _⟩ => simp [DotDims.rhsIdx, dot_S256x256_S256x256_S256x256_1_0_0_1_n_n]; exact c2
    | ⟨1, _⟩ => simp [DotDims.rhsIdx, dot_S256x256_S256x256_S256x256_1_0_0_1_n_n]; rfl
  rw [l2, r2]

/-- The zero block. -/
theorem zero_apply (i : S256x256.Idx) : k1_pay1 (F := Ideal) i = 0 := by
  unfold k1_pay1
  simp only [shapeCast_self]
  show Ideal.ofBits .f32 0x00000000#32 = 0
  exact Ideal.ofBits_zero_f32

/-- One accumulation step at an entry. -/
theorem step_apply (acc x0 x1 : Vec Ideal S256x256 .f32) (r q : Fin 256) :
    step acc x0 x1 (ix2 r q) = acc (ix2 r q) + ∑ k : Fin 256, x0 (ix2 r k) * x1 (ix2 k q) := by
  show k1_pay2 acc x0 x1 (ix2 r q) = _
  unfold k1_pay2
  simp only [shapeCast_self]
  rw [addf_apply, prod_apply]

/-- The finishing step at an entry. -/
theorem finish_apply (acc : Vec Ideal S256x256 .f32) (x2 : Vec Ideal S1x256 .f32) (r q : Fin 256) :
    k1_pay3 acc x2 (ix2 r q) = max (acc (ix2 r q) + x2 (ix2 (0 : Fin 1) q)) 0 := by
  unfold k1_pay3
  simp only [shapeCast_self]
  rw [maximumf_apply, addf_apply, broadcast_apply, broadcastTo_1b_ab_apply]
  show max _ (Ideal.ofBits .f32 0x00000000#32) = _
  rw [Ideal.ofBits_zero_f32]

end Cert.ReferenceIdeal.Aggregate

end
-- ==== Proof.RefAggFold.lean ====
/-
  The accumulator along a row of the grid.

  The 256 points are 16 rows of 16. Along a row the accumulator starts, at the row's first point, from zero plus that
  point's block product, and every later point adds its own block product to what the point before left. So after
  the row's last point an entry of the accumulator is zero plus the sum, over the row's 16 points, of the block
  products' entries.
-/
import proofs.«128712_g2000203924513823_pallasbulk_293_2_alg».proof.Proof.RefAggEntry

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.ValueIdx
open scoped BigOperators

variable (V : (c : Dev nD) → (b : Ref sig .tc) → Buf (Elt Ideal) ((c : Thread nD τ).loc b))

/-- What the first point of a row leaves in the accumulator, -/
def rowStart (c : Dev nD) (n : ℕ) (h : n < cfg1.N) : Vec Ideal S256x256 .f32 :=
  step (k1_pay1 (F := Ideal)) (iblk V c 0 ⟨n, h⟩) (iblk V c 1 ⟨n, h⟩)
/-- and what a later point makes of the accumulator it finds. -/
def rowStep (c : Dev nD) (n : ℕ) (h : n < cfg1.N) (acc : Vec Ideal S256x256 .f32) : Vec Ideal S256x256 .f32 :=
  step acc (iblk V c 0 ⟨n, h⟩) (iblk V c 1 ⟨n, h⟩)

/-- The blocks a point is handed, as vectors of extended reals. -/
def blkG (c : Dev nD) (t : Fin cfg1.N) : Vec Ideal S256x256 .f32 := iblk V c 0 t
def blkP (c : Dev nD) (t : Fin cfg1.N) : Vec Ideal S256x256 .f32 := iblk V c 1 t
def blkB (c : Dev nD) (t : Fin cfg1.N) : Vec Ideal S1x256 .f32 := iblk V c 2 t

theorem acc_first (c : Dev nD) (n : ℕ) (h : n < cfg1.N) (h0 : n % 16 = 0) :
    (outsAt V c n h).2 = rowStart V c n h := by
  have h1 : ¬n % 16 = 15 := by omega
  refine (congrArg Prod.snd (outsAt_first V c ⟨n, h⟩ h0 h1)).trans ?_
  exact soutFirst_eq (F := Ideal) c (grid1.coords ⟨n, h⟩) (ms0 ⟨n, h⟩) (hs0 ⟨n, h⟩) (ms1 ⟨n, h⟩) (hs1 ⟨n, h⟩) (ms2 ⟨n, h⟩) (hs2 ⟨n, h⟩) (ms3 ⟨n, h⟩) (hs3 ⟨n, h⟩) accM (Memref.isWhole_whole _) ((isFirst_iff ⟨n, h⟩).mpr h0) (fun hh => h1 ((isLast_iff ⟨n, h⟩).mp hh)) (iblk V c 0 ⟨n, h⟩) (iblk V c 1 ⟨n, h⟩)

theorem outsAt_congr (c : Dev nD) (n n' : ℕ) (h : n < cfg1.N) (h' : n' < cfg1.N) (e : n = n') :
    outsAt V c n h = outsAt V c n' h' := by subst e; rfl

set_option maxHeartbeats 4000000 in
theorem acc_step (c : Dev nD) (n : ℕ) (h : n + 1 < cfg1.N) (hne : ¬(n + 1) % 16 = 0) :
    (outsAt V c (n + 1) h).2 = rowStep V c (n + 1) h ((outsAt V c n (Nat.lt_of_succ_lt h)).2) := by
  have hp : outsAt V c ((⟨n + 1, h⟩ : Fin cfg1.N).val - 1) (Nat.lt_of_le_of_lt (Nat.sub_le _ _) (⟨n + 1, h⟩ : Fin cfg1.N).isLt)
      = outsAt V c n (Nat.lt_of_succ_lt h) := outsAt_congr V c _ _ _ _ rfl
  by_cases h1 : (n + 1) % 16 = 15
  · have e := outsAt_last V c ⟨n + 1, h⟩ hne h1
    rw [hp] at e
    refine (congrArg Prod.snd e).trans ?_
    exact soutLast_eq (F := Ideal) c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) accM (Memref.isWhole_whole _) (fun hh => hne ((isFirst_iff ⟨n + 1, h⟩).mp hh)) ((isLast_iff ⟨n + 1, h⟩).mpr h1) (iblk V c 0 ⟨n + 1, h⟩) (iblk V c 1 ⟨n + 1, h⟩) (iblk V c 2 ⟨n + 1, h⟩) ((outsAt V c n (Nat.lt_of_succ_lt h)).2)
  · have e := outsAt_middle V c ⟨n + 1, h⟩ hne h1
    rw [hp] at e
    refine (congrArg Prod.snd e).trans ?_
    exact soutMiddle_eq (F := Ideal) c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) accM (Memref.isWhole_whole _) (fun hh => hne ((isFirst_iff ⟨n + 1, h⟩).mp hh)) (fun hh => h1 ((isLast_iff ⟨n + 1, h⟩).mp hh)) (iblk V c 0 ⟨n + 1, h⟩) (iblk V c 1 ⟨n + 1, h⟩) ((outsAt V c n (Nat.lt_of_succ_lt h)).2)

/-- The accumulator after the last point of row `q` is the fold over the row's 16 points. -/
theorem acc_fold (c : Dev nD) (q : ℕ) (hq : 16 * q + 15 < cfg1.N) :
    (outsAt V c (16 * q + 15) hq).2 = Pipeline.accAt (rowStart V c) (rowStep V c) (16 * q) 15 hq :=
  Pipeline.eq_accAt (fun n h => (outsAt V c n h).2) 16 (rowStart V c) (rowStep V c)
    (fun n h h0 => acc_first V c n h h0) (fun n h hne => acc_step V c n h hne) q 15 (by omega) hq

/-- The block product of point `n` at entry (r, q) (zero past the grid, where nothing reads it). -/
def addend (c : Dev nD) (n : ℕ) (r q : Fin 256) : EReal :=
  if h : n < cfg1.N then
    ∑ k : Fin 256, blkG V c ⟨n, h⟩ (ix2 r k) * blkP V c ⟨n, h⟩ (ix2 k q)
  else 0

/-- The same at an index of the block. -/
def addendAt (c : Dev nD) (n : ℕ) (i : S256x256.Idx) : EReal :=
  addend V c n ⟨(i 0).val, idx2_lt0 i⟩ ⟨(i 1).val, idx2_lt1 i⟩

theorem rowStart_apply (c : Dev nD) (n : ℕ) (h : n < cfg1.N) (i : S256x256.Idx) :
    rowStart V c n h i = 0 + addendAt V c n i := by
  obtain ⟨r, q, rfl⟩ : ∃ (r q : Fin 256), i = ix2 r q := ⟨i 0, i 1, eq_ix2 i⟩
  show step _ _ _ (ix2 r q) = 0 + addend V c n r q
  rw [step_apply, zero_apply]; unfold addend; rw [dif_pos h]; rfl

theorem rowStep_apply (c : Dev nD) (n : ℕ) (h : n < cfg1.N) (acc : Vec Ideal S256x256 .f32) (i : S256x256.Idx) :
    rowStep V c n h acc i = acc i + addendAt V c n i := by
  obtain ⟨r, q, rfl⟩ : ∃ (r q : Fin 256), i = ix2 r q := ⟨i 0, i 1, eq_ix2 i⟩
  show step _ _ _ (ix2 r q) = acc (ix2 r q) + addend V c n r q
  rw [step_apply]; unfold addend; rw [dif_pos h]; rfl

/-- After the last point of row `q`, entry (r, o) of the accumulator is zero plus the sum of the row's 16 block
    products at (r, o). -/
theorem acc_sum (c : Dev nD) (q : ℕ) (hq : 16 * q + 15 < cfg1.N) (r o : Fin 256) :
    (outsAt V c (16 * q + 15) hq).2 (ix2 r o) = 0 + ∑ s ∈ Finset.range 16, addend V c (16 * q + s) r o := by
  rw [acc_fold V c q hq]
  exact Pipeline.accAt_add_apply (ι := S256x256.Idx) (β := EReal) (rowStart V c) (rowStep V c) (fun _ => 0) (addendAt V c) (16 * q) 15
    (fun h i => rowStart_apply V c _ h i) (fun n h acc i _ _ => rowStep_apply V c n h acc i) 15 (le_refl _) hq (ix2 r o)

end Cert.ReferenceIdeal.Aggregate

end
-- ==== Proof.RefAggFinal.lean ====
/-
  The aggregation kernel's result array as one function of the contents the kernel is entered with.

  Entry (p, o) of the result, with p = 256·i + r, is written back once, at the last point (i, 15) of row i of the
  grid: the maximum of zero and the accumulator's entry (r, o) plus the bias entry o. By then the accumulator's entry
  is the sum over the row's 16 points (i, s) of the products, over k, of g's entry (p, 256·s + k) and P's entry
  (256·s + k, o): point (i, s) is handed block (i, s) of g and rows 256·s … of P.
-/
import proofs.«128712_g2000203924513823_pallasbulk_293_2_alg».proof.Proof.RefAggFold
import proofs.«128712_g2000203924513823_pallasbulk_293_2_alg».proof.Proof.Layer

set_option maxRecDepth 16384

noncomputable section

namespace Cert.ReferenceIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.ValueIdx
open scoped BigOperators

variable (V : (c : Dev nD) → (b : Ref sig .tc) → Buf (Elt Ideal) ((c : Thread nD τ).loc b))

/-! ## The blocks at a point -/

/-- The contents the kernel is entered with, as arrays of extended reals: g's, P's and the bias row's. -/
def entG (c : Dev nD) : S4096x4096.Idx → EReal := V c main_v0
def entP (c : Dev nD) : S4096x256.Idx → EReal := V c main_v6
def entB (c : Dev nD) : S1x256.Idx → EReal := V c main_v5

/-- The printed index maps over the grid: point t = 16·i + k is handed block (i, k) of g, block (k, 0) of P, the
    one block of the bias, and block (i, 0) of the result. -/
theorem block_index : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- g's block at a point, at an entry: a block's coordinate is the block index times 256 plus the coordinate inside. -/
theorem read_g (c : Dev nD) (t : Fin cfg1.N) (r k : Fin 256) (p j : Fin 4096)
    (hp : p.val = 256 * (t.val / 16) + r.val) (hj : j.val = 256 * (t.val % 16) + k.val) :
    blkG V c t (ix2 r k) = entG V c (ix2 p j) := by
  obtain ⟨e0, e1, -⟩ := block_index t
  show (V c main_v0 : S4096x4096.Idx → EReal) (((cfg1.win 0).blk t).view.emb (ix2 r k)) = _
  refine congrArg _ (funext fun a => Fin.ext ?_)
  match a with
  | ⟨0, _⟩ => show win1_0.index t (0 : Fin 2) * 256 + 1 * r.val = p.val; omega
  | ⟨1, _⟩ => show win1_0.index t (1 : Fin 2) * 256 + 1 * k.val = j.val; omega

/-- P's block at a point, at an entry. -/
theorem read_P (c : Dev nD) (t : Fin cfg1.N) (k o : Fin 256) (j : Fin 4096)
    (hj : j.val = 256 * (t.val % 16) + k.val) :
    blkP V c t (ix2 k o) = entP V c (ix2 j o) := by
  obtain ⟨-, -, e2, e3, -⟩ := block_index t
  show (V c main_v6 : S4096x256.Idx → EReal) (((cfg1.win 1).blk t).view.emb (ix2 k o)) = _
  refine congrArg _ (funext fun a => Fin.ext ?_)
  match a with
  | ⟨0, _⟩ => show win1_1.index t (0 : Fin 2) * 256 + 1 * k.val = j.val; omega
  | ⟨1, _⟩ => show win1_1.index t (1 : Fin 2) * 256 + 1 * o.val = o.val; omega

/-- The bias row's block is the row. -/
theorem read_b (c : Dev nD) (t : Fin cfg1.N) (z : Fin 1) (o : Fin 256) :
    blkB V c t (ix2 z o) = entB V c (ix2 z o) := by
  obtain ⟨-, -, -, -, e4, e5, -⟩ := block_index t
  show (V c main_v5 : S1x256.Idx → EReal) (((cfg1.win 2).blk t).view.emb (ix2 z o)) = _
  refine congrArg _ (funext fun a => Fin.ext ?_)
  match a with
  | ⟨0, _⟩ => show win1_2.index t (0 : Fin 2) * 1 + 1 * z.val = z.val; omega
  | ⟨1, _⟩ => show win1_2.index t (1 : Fin 2) * 256 + 1 * o.val = o.val; omega

/-! ## One entry of the result -/

/-- Entry (p, o) of max (g · P + b) 0, the sum over the 4096 columns of g taken in 16 blocks of 256. -/
def aggOut (Gm : S4096x4096.Idx → EReal) (Pm : S4096x256.Idx → EReal) (Bm : S1x256.Idx → EReal) (p : Fin 4096) (o : Fin 256) : EReal :=
  max ((∑ kb : Fin 16, ∑ k : Fin 256, Gm (ix2 p (Cert.Layer.blk kb k)) * Pm (ix2 (Cert.Layer.blk kb k) o)) + Bm (ix2 (0 : Fin 1) o)) 0

/-- The same as the 4096 × 256 array. -/
def aggArr (c : Dev nD) : S4096x256.Idx → EReal :=
  fun i => aggOut (entG V c) (entP V c) (entB V c) ⟨(i 0).val, idx2_lt0 i⟩ ⟨(i 1).val, idx2_lt1 i⟩

/-- The block product of point (i, s) of the grid, at entry (r, o), in the arrays' own coordinates. -/
theorem addend_row (c : Dev nD) (q s : ℕ) (hq : q < 16) (hs : s < 16) (r o : Fin 256) (p : Fin 4096)
    (hp : p.val = 256 * q + r.val) :
    addend V c (16 * q + s) r o
      = ∑ k : Fin 256, entG V c (ix2 p (Cert.Layer.blk ⟨s, hs⟩ k)) * entP V c (ix2 (Cert.Layer.blk ⟨s, hs⟩ k) o) := by
  have h : 16 * q + s < cfg1.N := by rw [show cfg1.N = 256 from N_1]; omega
  unfold addend; rw [dif_pos h]
  refine Finset.sum_congr rfl fun k _ => ?_
  rw [read_g V c ⟨16 * q + s, h⟩ r k p (Cert.Layer.blk ⟨s, hs⟩ k)
        (by show p.val = 256 * ((16 * q + s) / 16) + r.val; omega)
        (by show s * 256 + k.val = 256 * ((16 * q + s) % 16) + k.val; omega),
      read_P V c ⟨16 * q + s, h⟩ k o (Cert.Layer.blk ⟨s, hs⟩ k)
        (by show s * 256 + k.val = 256 * ((16 * q + s) % 16) + k.val; omega)]

/-- What the last point of a row stores in the output's buffer, at an entry. -/
theorem out_entry (c : Dev nD) (t : Fin cfg1.N) (h15 : t.val % 16 = 15) (r o : Fin 256) (p : Fin 4096)
    (hp : p.val = 256 * (t.val / 16) + r.val) :
    (outsAt V c t.val t.isLt).1 (ix2 r o) = aggOut (entG V c) (entP V c) (entB V c) p o := by
  have h0 : ¬t.val % 16 = 0 := by omega
  have hN : t.val < 256 := lt_of_lt_of_eq t.isLt N_1
  have e1 : (outsAt V c t.val t.isLt).1 = k1_pay3 ((outsAt V c t.val t.isLt).2) (blkB V c t) := by
    rw [outsAt_last V c t h0 h15]; dsimp only; rw [outLast_eq, soutLast_eq]; rfl
  have hq : 16 * (t.val / 16) + 15 < cfg1.N := lt_of_lt_of_eq (by omega : 16 * (t.val / 16) + 15 < 256) N_1.symm
  have same : (outsAt V c t.val t.isLt).2 = (outsAt V c (16 * (t.val / 16) + 15) hq).2 :=
    congrArg Prod.snd (outsAt_congr V c _ _ _ _ (by omega))
  rw [e1, finish_apply, same, acc_sum V c (t.val / 16) hq r o, read_b, zero_add,
    Finset.sum_range (fun s => addend V c (16 * (t.val / 16) + s) r o)]
  unfold aggOut
  refine congrArg (fun x => max (x + _) 0) (Finset.sum_congr rfl fun s _ => ?_)
  exact addend_row V c (t.val / 16) s.val (by omega) s.isLt r o p hp

/-! ## From blocks to the array -/

/-- What a row's last point writes back is its block of the array `aggArr`. -/
theorem flushed_eq (c : Dev nD) (t : Fin cfg1.N) (hf : (cfg1.win 3).flush t = true) :
    (dat V c).flushed 3 t = ((cfg1.win 3).blk t).view.read (Elt Ideal) (aggArr V c) := by
  have h15 : t.val % 16 = 15 := (flush1_3 t).mp hf
  have hN : t.val < 256 := lt_of_lt_of_eq t.isLt N_1
  obtain ⟨-, -, -, -, -, -, e6, e7⟩ := block_index t
  show (cfg1.win 3).cut (grid1.coords t) ((dat V c).after 3 t) = _
  rw [after_out]
  funext y
  obtain ⟨r, o, rfl⟩ : ∃ (r o : Fin 256), y = ix2 r o := ⟨y 0, y 1, eq_ix2 y⟩
  show (outsAt V c t.val t.isLt).1 (ix2 r o) = aggArr V c (((cfg1.win 3).blk t).view.emb (ix2 r o))
  rw [out_entry V c t h15 r o ⟨256 * (t.val / 16) + r.val, by omega⟩ rfl]
  unfold aggArr
  refine congr (congrArg _ (Fin.ext ?_)) (Fin.ext ?_)
  · show 256 * (t.val / 16) + r.val = win1_3.index t (0 : Fin 2) * 256 + 1 * r.val; omega
  · show o.val = win1_3.index t (1 : Fin 2) * 256 + 1 * o.val; omega

/-- An index of the array is in point `t`'s block iff each coordinate is in the block's range. -/
theorem mem_blk (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v7).slice (win1_3.rect t)).set ↔ _
  rw [View.set_slice_whole, Rect.mem_set_unit]
  exact Iff.rfl

/-- Every entry is written back by the last point of its row of blocks: row p is in block p / 256. -/
theorem cover (i : S4096x256.Idx) :
    ∃ t : Fin cfg1.N, (cfg1.win 3).flush t = true ∧ i ∈ ((cfg1.win 3).blk t).view.set := by
  have hi0 : (i 0).val < 4096 := idx2_lt0 i
  have hi1 : (i 1).val < 256 := idx2_lt1 i
  have ht : 16 * ((i 0).val / 256) + 15 < cfg1.N := by rw [show cfg1.N = 256 from N_1]; omega
  refine ⟨⟨16 * ((i 0).val / 256) + 15, ht⟩, (flush1_3 _).mpr (by show (16 * ((i 0).val / 256) + 15) % 16 = 15; omega), ?_⟩
  rw [mem_blk]
  obtain ⟨-, -, -, -, -, -, e6, e7⟩ := block_index ⟨16 * ((i 0).val / 256) + 15, ht⟩
  have e6' : win1_3.index ⟨16 * ((i 0).val / 256) + 15, ht⟩ (0 : Fin 2) = (16 * ((i 0).val / 256) + 15) / 16 := e6
  intro a
  match a with
  | ⟨0, _⟩ =>
    show win1_3.index ⟨16 * ((i 0).val / 256) + 15, ht⟩ (0 : Fin 2) * 256 ≤ (i 0).val ∧ (i 0).val < win1_3.index ⟨16 * ((i 0).val / 256) + 15, ht⟩ (0 : Fin 2) * 256 + 256
    omega
  | ⟨1, _⟩ =>
    show win1_3.index ⟨16 * ((i 0).val / 256) + 15, ht⟩ (1 : Fin 2) * 256 ≤ (i 1).val ∧ (i 1).val < win1_3.index ⟨16 * ((i 0).val / 256) + 15, ht⟩ (1 : Fin 2) * 256 + 256
    omega

/-- THE RESULT ARRAY after the kernel. -/
theorem final (c : Dev nD) : (dat V c).arrAt 3 cfg1.N = aggArr V c :=
  (dat V c).arrAt_eq_of_cover 3 (aggArr V c) (fun t hf => flushed_eq V c t hf) (cover)

end Cert.ReferenceIdeal.Aggregate

end
-- ==== Proof.RefProjectValue.lean ====
/-
  The projection kernel's output array, as one function of what it was handed.

  The grid's 16 points each write back one block of 256 rows of the output. Point t is handed rows
  256·t … 256·t + 255 of the features and the whole second array, and stores their product, accumulated into zero:
  entry (p, q) of its block is the sum over k of (features' row 256·t + p, column k) times (second array's row k,
  column q). Row r of the output lies in the block of point r / 256 only, and that point is handed row r of the
  features; so after the 16 points entry (r, q) of the output is the sum over k of features (r, k) times second
  array (k, q): the product of the two arrays, whatever the output held before.
-/
import proofs.«128712_g2000203924513823_pallasbulk_293_2_alg».proof.Proof.RefProject
import Idealize.ShloMosaic.Lib.Pipeline.Value
import Idealize.ShloMosaic.Lib.ValueLayout
import Idealize.ShloMosaic.Lib.StackMember

noncomputable section

open scoped BigOperators

namespace Cert.ReferenceIdeal.Project

open Idealize.ShloMosaic Idealize.ShloMosaic.TcCoe Idealize.ShloMosaic.ValueIdx Idealize.SL.Sem
open Idealize.ShloMosaic.Pipeline (Dat)
open Cert.ReferenceIdeal Cert.ReferenceIdeal.Gen

/-- The product of a 4096x256 array with a 256x256 array, entry by entry. -/
def prod (h' : S4096x256.Idx → EReal) (wt : S256x256.Idx → EReal) : S4096x256.Idx → EReal :=
  fun i => ∑ k : Fin 256, h' (ix2 (i 0) k) * wt (ix2 k (i 1))

/-- The product at coordinates (j, o). -/
theorem prod_ix2 (h' : S4096x256.Idx → EReal) (wt : S256x256.Idx → EReal) (j : Fin 4096) (o : Fin 256) :
    prod h' wt (ix2 j o) = ∑ k : Fin 256, h' (ix2 j k) * wt (ix2 k o) := rfl

/-! ## One entry of what a point stores -/

/-- The body's product contracts the second axis of its first block with the first axis of its second: a plain
    256 × 256 by 256 × 256 product. -/
theorem dot_eq : dot_S256x256_S256x256_S256x256_1_0_0_1_n_n = DotDims.plain 256 256 256 := rfl

/-- A plain product accumulated into the zero block, read at (r, c): the sum over the contracted coordinate. -/
theorem matmul_plain_zero_apply {a k n : Nat} (prec : Option ContractPrecision)
    (A : FVec Ideal ⟨2, ![a, k]⟩ .f32) (B : FVec Ideal ⟨2, ![k, n]⟩ .f32) (r : Fin a) (c : Fin n) :
    matmul (DotDims.plain a k n) prec A B (constant ⟨2, ![a, n]⟩ .f32 0x00000000#32) (ix2 r c)
      = ∑ q : Fin k, A (ix2 r q) * B (ix2 q c) := by
  rw [matmul_zero_eq_dotGeneral]
  exact StackMember.dotGeneral_plain_apply prec A B r c

/-- Entry (p, q) of the block a point stores, from the two blocks it loaded. -/
theorem pay_apply (x0 x1 : Vec Ideal S256x256 .f32) (p q : Fin 256) :
    k0_pay1 (F := Ideal) x0 x1 (ix2 p q) = ∑ k : Fin 256, x0 (ix2 p k) * x1 (ix2 k q) := by
  unfold k0_pay1
  simp only [shapeCast_self, dot_eq]
  exact matmul_plain_zero_apply _ _ _ _ _

/-! ## From the blocks to the array -/

/-- The zero offsets of the rectangle the body loads and stores through. -/
theorem hz : (![0, 0] : Fin 2 → Nat) = fun _ => 0 := funext fun a => by fin_cases a <;> rfl

variable (V : (c : Dev nD) → (b : Ref sig .tc) → Buf (Elt Ideal) ((c : Thread nD τ).loc b))

/-- The block indices over the grid: point t's blocks of the features and of the output are block t along the
    rows, block 0 along the columns; the second array's block is block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the features is rows 256·t … 256·t + 255 of the first array: its entry (p, k) is the
    array's entry (256·t + p, k). -/
theorem iblk_h_apply (c : Dev nD) (t : Fin cfg0.N) (p k : Fin 256) (r : Fin 4096) (hr : r.val = t.val * 256 + p.val) :
    (iblk V c 0 t : Vec Ideal S256x256 .f32) (ix2 p k) = (V c main_v1 : S4096x256.Idx → EReal) (ix2 r k) := by
  obtain ⟨e0, e1, -⟩ := idx_facts t
  unfold iblk
  rw [View.read_apply]
  show (V c main_v1 : S4096x256.Idx → EReal) _ = (V c main_v1 : S4096x256.Idx → EReal) _
  refine congrArg (V c main_v1 : S4096x256.Idx → EReal) (funext fun a => Fin.ext ?_)
  match a with
  | ⟨0, _⟩ => show win0_0.index t (0 : Fin 2) * 256 + 1 * p.val = r.val; rw [e0, hr]; omega
  | ⟨1, _⟩ => show win0_0.index t (1 : Fin 2) * 256 + 1 * k.val = k.val; rw [e1]; omega

/-- Every point's block of the second array is the whole array. -/
theorem iblk_wt_apply (c : Dev nD) (t : Fin cfg0.N) (k q : Fin 256) :
    (iblk V c 1 t : Vec Ideal S256x256 .f32) (ix2 k q) = (V c main_v3 : S256x256.Idx → EReal) (ix2 k q) := by
  obtain ⟨-, -, e2, e3, -⟩ := idx_facts t
  unfold iblk
  rw [View.read_apply]
  show (V c main_v3 : S256x256.Idx → EReal) _ = (V c main_v3 : S256x256.Idx → EReal) _
  refine congrArg (V c main_v3 : S256x256.Idx → EReal) (funext fun a => Fin.ext ?_)
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- What point t writes back is its block of the product of the two arrays. -/
theorem flushed_eq (c : Dev nD) (t : Fin cfg0.N) :
    (dat (F := Ideal) V c).flushed 2 t = ((cfg0.win 2).blk t).view.read (Elt Ideal) (prod (V c main_v1) (V c main_v3)) := by
  show (cfg0.win 2).cut (grid0.coords t) ((dat V c).after 2 t) = _
  rw [after_P]
  unfold outP
  rw [View.canon_unit_zero hz]
  simp only [View.ld_unit_zero (S := S256x256) hz]
  obtain ⟨-, -, -, -, e4, e5⟩ := idx_facts t
  have ht : t.val < 16 := lt_of_lt_of_eq t.isLt (N_0 : cfg0.N = 16)
  refine funext fun (j : S256x256.Idx) => ?_
  obtain ⟨p, q, rfl⟩ : ∃ (p q : Fin 256), j = ix2 p q := ⟨j 0, j 1, eq_ix2 j⟩
  show k0_pay1 (iblk V c 0 t) (iblk V c 1 t) (ix2 p q)
    = prod (V c main_v1) (V c main_v3) (((cfg0.win 2).blk t).view.emb (ix2 p q))
  have er : (((cfg0.win 2).blk t).view.emb (ix2 p q) : S4096x256.Idx) = ix2 (⟨t.val * 256 + p.val, by omega⟩ : Fin 4096) q := by
    funext a; apply Fin.ext
    match a with
    | ⟨0, _⟩ => show win0_2.index t (0 : Fin 2) * 256 + 1 * p.val = t.val * 256 + p.val; rw [e4]; omega
    | ⟨1, _⟩ => show win0_2.index t (1 : Fin 2) * 256 + 1 * q.val = q.val; rw [e5]; omega
  rw [er, prod_ix2, pay_apply]
  exact Finset.sum_congr rfl fun k _ => by rw [iblk_h_apply V c t p k ⟨t.val * 256 + p.val, by omega⟩ rfl, iblk_wt_apply V c t k q]

/-- An index of the output array is in point t's block iff each coordinate is in the block's range on its axis. -/
theorem mem_blk (t : Fin cfg0.N) (i : S4096x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v6).slice (win0_2.rect t)).set ↔ _
  rw [View.set_slice_whole, Rect.mem_set_unit]
  exact Iff.rfl

/-- Row r of the output lies in the block of point r / 256, and every point writes its block back: the blocks
    cover the array. -/
theorem cover (i : S4096x256.Idx) :
    ∃ t : Fin cfg0.N, (cfg0.win 2).flush t = true ∧ i ∈ ((cfg0.win 2).blk t).view.set := by
  have hi0 : (i 0).val < 4096 := idx2_lt0 i
  have hi1 : (i 1).val < 256 := idx2_lt1 i
  obtain ⟨t, ht⟩ : ∃ t : Fin cfg0.N, t.val = (i 0).val / 256 :=
    ⟨⟨(i 0).val / 256, by rw [show cfg0.N = 16 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 256 ≤ (i 1).val ∧ (i 1).val < win0_2.index t (1 : Fin 2) * 256 + 256
    rw [e5]; omega

/-- After the 16 points the output array holds the product of the two arrays the kernel was handed. -/
theorem final (c : Dev nD) : (dat (F := Ideal) V c).arrAt 2 cfg0.N = prod (V c main_v1) (V c main_v3) :=
  (dat V c).arrAt_eq_of_cover 2 (prod (V c main_v1) (V c main_v3)) (fun t _ => flushed_eq V c t) cover

end Cert.ReferenceIdeal.Project

end
-- ==== Proof.RefHostValue.lean ====
/-
  What the operations before the two kernels leave in the four arrays the kernels are handed.

  Each argument passes through operations that move no value. The matrix `g` and the features `h` are padded by
  zero entries on every side, with nothing put between their entries: no entry is added. The weights are
  transposed, and the transpose is padded by nothing. The bias, 256 entries, is laid out as one row of 256 and
  padded by nothing. So the first array is `g` as launched, the second is `h` as launched, entry (k, o) of the
  third is `w (o, k)`, and entry (0, o) of the fourth is `b o`.

  The buffers' contents are followed stretch by stretch: a stretch that does not write a buffer leaves it as it
  was, so each array is read off the one stretch that writes it, and that stretch's operands are read off the
  launch contents the same way.
-/
import proofs.«128712_g2000203924513823_pallasbulk_293_2_alg».proof.Proof.Gen.ReferenceIdeal.Regions
import Idealize.ShloMosaic.Lib.ValueLayout
import Idealize.ShloMosaic.Lib.KernelVsHost

noncomputable section

namespace Cert.ReferenceIdeal.HostValue

open Idealize.ShloMosaic Idealize.ShloMosaic.TcCoe Idealize.ShloMosaic.ValueIdx Idealize.SL.Sem Cert.ReferenceIdeal Cert.ReferenceIdeal.Gen
open Idealize.ShloMosaic.StableHlo

variable (m : (ℓ : Loc nD τ sig) → Buf (Elt Ideal) ℓ) (c : Dev nD)

/-- Padding a matrix by nothing on every side, with nothing between its entries, leaves the matrix: entry `j` of the
    padded matrix is entry `j` of the operand, since `j = 0 + j · (0 + 1)` on both axes. -/
theorem pad_nothing {a b : Nat} {α : Type} (x : (⟨2, ![a, b]⟩ : Shape).Idx → α) {u : Shape} (v : u.Idx → α)
    (h : (⟨2, ![a, b]⟩ : Shape).Pads (![0, 0] : Fin 2 → Nat) ![0, 0] ![0, 0] ⟨2, ![a, b]⟩) (hu : 0 < u.numel) :
    pad ⟨2, ![a, b]⟩ ![0, 0] ![0, 0] ![0, 0] x v h hu = x :=
  funext fun j => pad_apply_of_inside _ _ _ x v h hu j j fun ax => by
    match ax with
    | ⟨0, _⟩ => show (j 0).val = 0 + (j 0).val * (0 + 1); omega
    | ⟨1, _⟩ => show (j 1).val = 0 + (j 1).val * (0 + 1); omega

/-- The first array is `g` as launched: only the second stretch writes it, as the padding of `g` by nothing. -/
theorem v0_eq : (Gen.V8 m c main_v0 : S4096x4096.Idx → EReal) = m ((c : Thread nD τ).loc main_arg0) := by
  rw [V8_of m c main_v0 (by decide), V7_of m c main_v0 (by decide), V6_of m c main_v0 (by decide),
    V5_of m c main_v0 (by decide), V4_of m c main_v0 (by decide), V3_of m c main_v0 (by decide)]
  dsimp only [V2, hostOps0_1]
  after_results
  show pad S4096x4096 ![0, 0] ![0, 0] ![0, 0] (m ((c : Thread nD τ).loc main_arg0) : S4096x4096.Idx → EReal) _
    pads_S4096x4096_S4096x4096_000_000 h_S_ = _
  exact pad_nothing _ _ _ _

/-- The second array is `h` as launched: only the fourth stretch writes it, as the padding of `h` by nothing. -/
theorem v1_eq : (Gen.V8 m c main_v1 : S4096x256.Idx → EReal) = m ((c : Thread nD τ).loc main_arg1) := by
  rw [V8_of m c main_v1 (by decide), V7_of m c main_v1 (by decide), V6_of m c main_v1 (by decide),
    V5_of m c main_v1 (by decide)]
  dsimp only [V4, hostOps0_3]
  after_results
  show pad S4096x256 ![0, 0] ![0, 0] ![0, 0] (m ((c : Thread nD τ).loc main_arg1) : S4096x256.Idx → EReal) _
    pads_S4096x256_S4096x256_000_000 h_S_ = _
  exact pad_nothing _ _ _ _

/-- The third array is the transpose of the weights: its entry (k, o) is `w (o, k)`. The fifth stretch transposes
    `w`, the sixth pads the transpose by nothing. -/
theorem v3_apply (k o : Fin 256) : (Gen.V8 m c main_v3 : S256x256.Idx → EReal) (ix2 k o)
    = (m ((c : Thread nD τ).loc main_arg2) : S256x256.Idx → EReal) (ix2 o k) := by
  rw [V8_of m c main_v3 (by decide), V7_of m c main_v3 (by decide)]
  dsimp only [V6, hostOps0_5]
  after_results
  show pad S256x256 ![0, 0] ![0, 0] ![0, 0]
    (transpose S256x256 [1, 0] (m ((c : Thread nD τ).loc main_arg2) : S256x256.Idx → EReal) transposes_S256x256_S256x256_1_0) _
    pads_S256x256_S256x256_000_000 h_S_ (ix2 k o) = _
  rw [pad_nothing, transpose_ix2_apply]

/-- The fourth array is the bias as one row: its entry (0, o) is `b o`. The seventh stretch lays the bias out as a
    row, the eighth pads the row by nothing. -/
theorem v5_apply (z : Fin 1) (o : Fin 256) : (Gen.V8 m c main_v5 : S1x256.Idx → EReal) (ix2 z o)
    = (m ((c : Thread nD τ).loc main_arg3) : S256.Idx → EReal) (ix1 o) := by
  dsimp only [V8, hostOps0_7]
  after_results
  show pad S1x256 ![0, 0] ![0, 0] ![0, 0]
    (shapeCast S1x256 (m ((c : Thread nD τ).loc main_arg3) : S256.Idx → EReal) shapeCasts_S256_S1x256) _
    pads_S1x256_S1x256_000_000 h_S_ (ix2 z o) = _
  rw [pad_nothing, shapeCast_a_1a_apply]

end Cert.ReferenceIdeal.HostValue

end
-- ==== Proof.RefValue.lean ====
/-
  The reference's result as one function of its four argument arrays.

  The aggregation kernel leaves max (g' · P + b') 0 of the contents it is entered with. Those contents are: g' the
  zero-width pad of g, which is g; b' the one-row reshape of b; and P what the projection kernel left, h' · wᵀ' of ITS
  entry contents, h' the pad of h and wᵀ' the transpose of w. Put together, entry (p, o) of the result is
  max ((∑ over the 16 blocks kb and the 256 nodes j' of a block, g p j · (∑ k, h j k · w o k)) + b o) 0 with
  j = 256·kb + j': the layer with the features projected first.
-/
import proofs.«128712_g2000203924513823_pallasbulk_293_2_alg».proof.Proof.RefRun
import proofs.«128712_g2000203924513823_pallasbulk_293_2_alg».proof.Proof.RefAggFinal
import proofs.«128712_g2000203924513823_pallasbulk_293_2_alg».proof.Proof.RefProjectValue
import proofs.«128712_g2000203924513823_pallasbulk_293_2_alg».proof.Proof.RefHostValue

set_option maxRecDepth 16384

noncomputable section

namespace Cert.ReferenceIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.ValueIdx
open scoped BigOperators

variable (m : (ℓ : Loc nD τ sig) → Buf (Elt Ideal) ℓ) (ρ : Dev nD → PrngReg)

/-- The four argument arrays at launch, as arrays of extended reals. -/
def argG (c : Dev nD) : Cert.Layer.SG.Idx → EReal := m ((c : Thread nD τ).loc main_arg0)
def argH (c : Dev nD) : Cert.Layer.SH.Idx → EReal := m ((c : Thread nD τ).loc main_arg1)
def argW (c : Dev nD) : Cert.Layer.SW.Idx → EReal := m ((c : Thread nD τ).loc main_arg2)
def argB (c : Dev nD) : Cert.Layer.SB.Idx → EReal := m ((c : Thread nD τ).loc main_arg3)

/-- What the aggregation kernel finds in g's buffer: g. -/
theorem entry_g (c : Dev nD) : Aggregate.entG (E9 m) c = argG m c :=
  (W9_of_ne m c main_v0 (by decide)).trans (HostValue.v0_eq m c)

/-- What it finds in the bias row's buffer, at entry o: b at o. -/
theorem entry_b (c : Dev nD) (o : Fin 256) : Aggregate.entB (E9 m) c (ix2 (0 : Fin 1) o) = argB m c (ix1 o) :=
  (congrFun (W9_of_ne m c main_v5 (by decide)) _).trans (HostValue.v5_apply m c 0 o)

/-- What the projection kernel finds: h, and wᵀ. -/
def projH (c : Dev nD) : S4096x256.Idx → EReal := E8 m c main_v1
def projW (c : Dev nD) : S256x256.Idx → EReal := E8 m c main_v3

/-- What the aggregation kernel finds in P's buffer, at entry (j, o): the projected feature ∑ k, h j k · w o k. -/
theorem entry_P (c : Dev nD) (j : Fin 4096) (o : Fin 256) :
    Aggregate.entP (E9 m) c (ix2 j o) = ∑ k : Fin 256, argH m c (ix2 j k) * argW m c (ix2 o k) := by
  have e : Aggregate.entP (E9 m) c = Project.prod (projH m c) (projW m c) :=
    (W9_arr m c 2).trans (Project.final (E8 m) c)
  rw [e, Project.prod_ix2]
  refine Finset.sum_congr rfl fun k _ => ?_
  rw [show projH m c = argH m c from HostValue.v1_eq m c,
    show projW m c (ix2 k o) = argW m c (ix2 o k) from HostValue.v3_apply m c k o]

/-- THE RESULT ARRAY of the reference. -/
theorem result (c : Dev nD) :
    (Aggregate.dat (E9 m) c).arrAt 3 cfg1.N
      = Cert.Layer.whole (Cert.Layer.projFirst (argG m c) (argH m c) (argW m c) (argB m c)) := by
  rw [Aggregate.final]
  funext i
  obtain ⟨p, o, rfl⟩ : ∃ (p : Fin 4096) (o : Fin 256), i = ix2 p o := ⟨i 0, i 1, eq_ix2 i⟩
  show Aggregate.aggOut (Aggregate.entG (E9 m) c) (Aggregate.entP (E9 m) c) (Aggregate.entB (E9 m) c) p o
    = Cert.Layer.projFirst (argG m c) (argH m c) (argW m c) (argB m c) p o
  unfold Aggregate.aggOut Cert.Layer.projFirst
  rw [entry_g m c, entry_b m c o]
  refine congrArg (fun x => max (x + _) 0) (Finset.sum_congr rfl fun kb _ => Finset.sum_congr rfl fun j' _ => ?_)
  rw [entry_P m c]

/-- THE REFERENCE'S RUN, read: the result array at the layer with the features projected first, the arguments
    unchanged. -/
theorem run : θ_run (defs (F := Ideal)) (onTc (τ := τ) (main (F := Ideal))) ⟨m, fun _ => 0, ρ⟩ (fun r => ∀ c : Dev nD,
      r.2.mem ((c.tc : Thread nD τ).loc main_v7)
        = Cert.Layer.whole (Cert.Layer.projFirst (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result m c), (h c).2⟩) (run_blocks m ρ)

end Cert.ReferenceIdeal.Whole

end
-- ==== Proof.LayerAlgebra.lean ====
/-
  Associativity of the matrix product, for the graph-convolution layer.

  For real matrices (g · h) · wᵀ = g · (h · wᵀ): entry by entry,
  ∑ k, (∑ j, G j * H j k) * W k = ∑ j, G j * (∑ k, H j k * W k) — distribute the outer factor over the inner sum on
  both sides, exchange the two sums, and compare term by term. A sum over the 4096 nodes is the sum over the 16
  consecutive blocks of 256 nodes, because (kb, j') ↦ 256 · kb + j' is a bijection from Fin 16 × Fin 256 onto
  Fin 4096 (quotient and remainder by 256 invert it). The real identity carries over to extended reals all of whose
  entries are real numbers, because the coercion ℝ → EReal commutes with products and finite sums. Regrouping a sum
  needs no finiteness; distributing does.
-/
import proofs.«128712_g2000203924513823_pallasbulk_293_2_alg».proof.Proof.Layer
import Mathlib.Tactic.Ring
import Mathlib.Algebra.BigOperators.Ring.Finset
import Mathlib.Data.EReal.Operations

noncomputable section

open scoped BigOperators

namespace Cert.Layer

open Idealize.ShloMosaic Idealize.ShloMosaic.ValueIdx

/-! ## The coercion of a finite sum of reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Associativity, over abstract finite index types -/

/-- One entry of (G · H) · W = G · (H · W) for real matrices: G a row, H a matrix, W a column. -/
theorem real_assoc {J K : Type*} [Fintype J] [Fintype K] (G : J → ℝ) (H : J → K → ℝ) (W : K → ℝ) :
    ∑ k, (∑ j, G j * H j k) * W k = ∑ j, G j * ∑ k, H j k * W k := by
  simp only [Finset.sum_mul, Finset.mul_sum]
  rw [Finset.sum_comm]
  exact Finset.sum_congr rfl fun j _ => Finset.sum_congr rfl fun k _ => by ring

/-- The same entry over the extended reals, when every entry of the three factors is a real number. -/
theorem ereal_assoc {J K : Type*} [Fintype J] [Fintype K] (G : J → EReal) (H : J → K → EReal) (W : K → EReal)
    (hG : ∀ j, ∃ r : ℝ, G j = (r : EReal)) (hH : ∀ j k, ∃ r : ℝ, H j k = (r : EReal))
    (hW : ∀ k, ∃ r : ℝ, W k = (r : EReal)) :
    ∑ k, (∑ j, G j * H j k) * W k = ∑ j, G j * ∑ k, H j k * W k := by
  choose G' hG using hG
  choose H' hH using hH
  choose W' hW using hW
  simp only [hG, hH, hW, ← EReal.coe_mul, ← coe_sum]
  rw [real_assoc]

/-! ## The 4096 nodes as 16 blocks of 256 -/

/-- Block and position inside the block, against the node: (kb, j') ↦ 256 · kb + j', inverted by quotient and
    remainder by 256. -/
def blkEquiv : Fin 16 × Fin 256 ≃ Fin 4096 where
  toFun q := blk q.1 q.2
  invFun j := (⟨j.val / 256, by omega⟩, ⟨j.val % 256, by omega⟩)
  left_inv q := by
    obtain ⟨kb, j'⟩ := q
    refine Prod.ext (Fin.ext ?_) (Fin.ext ?_)
    · show (kb.val * 256 + j'.val) / 256 = kb.val
      omega
    · show (kb.val * 256 + j'.val) % 256 = j'.val
      omega
  right_inv j := by
    refine Fin.ext ?_
    show j.val / 256 * 256 + j.val % 256 = j.val
    omega

/-- A sum over the nodes is the sum over the blocks of the sums inside each block. -/
theorem sum_blocks {M : Type*} [AddCommMonoid M] (f : Fin 4096 → M) :
    ∑ j, f j = ∑ kb : Fin 16, ∑ j' : Fin 256, f (blk kb j') := by
  rw [← Equiv.sum_comp blkEquiv f, Fintype.sum_prod_type]
  rfl

/-! ## The two bracketings of the layer agree on real entries -/

/-- Aggregating first and projecting first give the same layer when every entry of g, h and w is a real
    number: associativity inside the maximum, the bias untouched, the node sum regrouped into blocks. -/
theorem aggFirst_eq_projFirst (g : SG.Idx → EReal) (h : SH.Idx → EReal) (w : SW.Idx → EReal) (b : SB.Idx → EReal)
    (hg : ∀ i, ∃ r : ℝ, g i = (r : EReal)) (hh : ∀ i, ∃ r : ℝ, h i = (r : EReal))
    (hw : ∀ i, ∃ r : ℝ, w i = (r : EReal)) :
    aggFirst g h w b = projFirst g h w b := by
  funext p o
  unfold aggFirst projFirst
  refine congrArg (fun x : EReal => max (x + b (ix1 o)) 0) ?_
  exact (ereal_assoc (fun j : Fin 4096 => g (ix2 p j)) (fun (j : Fin 4096) (k : Fin 256) => h (ix2 j k))
      (fun k : Fin 256 => w (ix2 o k)) (fun j => hg _) (fun j k => hh _) (fun k => hw _)).trans
    (sum_blocks (fun j : Fin 4096 => g (ix2 p j) * ∑ k : Fin 256, h (ix2 j k) * w (ix2 o k)))

end Cert.Layer

end
-- ==== Proof.LayerFinite.lean ====
/-
  The printed precondition, read back: every entry of the four arrays is a real number.

  The precondition tests each array with "|x| < +∞ at every entry" — the absolute value max x (-x), compared with
  the extended real that the f32 pattern 0x7F800000 denotes, which is +∞, the bits joined by "and" over the whole
  array — and joins the four answers by "and". An "and" of bits is 1 exactly when both bits are 1, and an "and" over
  an array that comes out 1 met a 1 at every entry; so the answer 1 gives |x| < +∞ at every entry of every array.
  An extended real is -∞, a real number, or +∞, and both infinities have absolute value +∞: what is left is a real.
-/
import proofs.«128712_g2000203924513823_pallasbulk_293_2_alg».proof.Pre_finite_inputs
import proofs.«128712_g2000203924513823_pallasbulk_293_2_alg».proof.Proof.Gen.Pre_finite_inputs
import proofs.«128712_g2000203924513823_pallasbulk_293_2_alg».proof.Proof.Layer
import Idealize.ShloMosaic.Lib.ReduceAll

noncomputable section

namespace Cert.Layer

open Idealize.ShloMosaic Idealize.ShloMosaic.ValueIdx

/-- The scalar shape has one index. -/
instance scalarIdx_subsingleton : Subsingleton Cert.Pre_finite_inputs.S_.Idx :=
  ⟨fun a b => funext fun d => d.elim0⟩

/-- The f32 pattern with all exponent bits set and no fraction bit denotes +∞. -/
theorem ofBits_inf_f32 : Ideal.ofBits .f32 0x7F800000#32 = (⊤ : EReal) := by
  simp [Ideal.ofBits, Ideal.ieee]

/-- The ordered "less than" answers 1 only where the strict inequality holds. -/
theorem lt_of_cmp_olt (x y : EReal) (e : Ideal.cmp .olt x y = 1#1) : x < y := by
  by_contra hn
  simp [Ideal.cmp, hn] at e

/-- An extended real whose absolute value is below +∞ is a real number: both infinities have absolute value +∞. -/
theorem real_of_abs_lt_top (x : EReal) (e : max x (-x) < ⊤) : ∃ r : ℝ, x = (r : EReal) := by
  induction x using EReal.rec with
  | bot => simp at e
  | coe r => exact ⟨r, rfl⟩
  | top => simp at e

/-- One array's test: if "|x| < +∞", joined by "and" over all entries, answers 1, every entry is a real number. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu j = 1#1)
    (i : S.Idx) : ∃ r : ℝ, x i = (r : EReal) := by
  have h1 : Ideal.cmp .olt (max (x i) (-(x i))) (Ideal.ofBits .f32 0x7F800000#32) = 1#1 :=
    Host.reduce_andi_all _ _ hr hu j e i
  have h2 := lt_of_cmp_olt _ _ h1
  rw [ofBits_inf_f32] at h2
  exact real_of_abs_lt_top _ h2

/-- The precondition answering 1 says every entry of the four arrays is a real number. -/
theorem real_of_finite_inputs (g : FVec Ideal Cert.Pre_finite_inputs.S4096x4096 .f32)
    (h : FVec Ideal Cert.Pre_finite_inputs.S4096x256 .f32) (w : FVec Ideal Cert.Pre_finite_inputs.S256x256 .f32)
    (b : FVec Ideal Cert.Pre_finite_inputs.S256 .f32)
    (hpre : @Cert.Pre_finite_inputs.fn Cert.Pre_finite_inputs.Gen.facts Ideal _ g h w b = (fun _ => 1#1)) :
    (∀ i, ∃ r : ℝ, g i = (r : EReal)) ∧ (∀ i, ∃ r : ℝ, h i = (r : EReal)) ∧
      (∀ i, ∃ r : ℝ, w i = (r : EReal)) ∧ (∀ i, ∃ r : ℝ, b i = (r : EReal)) := by
  have e := congrFun hpre ix0
  dsimp only [Cert.Pre_finite_inputs.fn, Cert.Pre_finite_inputs.fn_part1] at e
  unfold andi at e
  rw [IntOp.andi_eq_one, IntOp.andi_eq_one, IntOp.andi_eq_one] at e
  obtain ⟨⟨⟨eg, eh⟩, ew⟩, eb⟩ := e
  exact ⟨real_of_all g _ _ _ _ eg, real_of_all h _ _ _ _ eh, real_of_all w _ _ _ _ ew, real_of_all b _ _ _ _ eb⟩

end Cert.Layer

end
-- ==== Proof.lean ====
/-
  Two ways of bracketing one graph-convolution layer agree on finite inputs.

  The kernel computes max ((g · h) · wᵀ + b) 0 in one pass over row blocks of g; the reference computes
  max (g · (h · wᵀ) + b) 0 with a projection kernel followed by an aggregation kernel that accumulates over 16
  column blocks of g. Over the extended reals each program's result array is a function of the four argument arrays
  (`Layer.aggFirst`, `Layer.projFirst`), and the two functions agree when every entry of g, h and w is a real
  number: the associativity of the matrix product, which rests on distributivity and therefore needs finiteness.
  The precondition says exactly that every entry is a real number.

  The three frames: the kernel's two programs by their generated frame proofs; the reference's by its run with the
  result dropped. The idealization rewrote nothing, so there is nothing to preserve.
-/
import proofs.«128712_g2000203924513823_pallasbulk_293_2_alg».proof.Defs
import proofs.«128712_g2000203924513823_pallasbulk_293_2_alg».proof.Proof.Gen.Kernel
import proofs.«128712_g2000203924513823_pallasbulk_293_2_alg».proof.Proof.Gen.Kernel.Frame
import proofs.«128712_g2000203924513823_pallasbulk_293_2_alg».proof.Proof.Gen.KernelIdeal
import proofs.«128712_g2000203924513823_pallasbulk_293_2_alg».proof.Proof.Gen.KernelIdeal.Frame
import proofs.«128712_g2000203924513823_pallasbulk_293_2_alg».proof.Proof.Gen.KernelIdeal.Value
import proofs.«128712_g2000203924513823_pallasbulk_293_2_alg».proof.Proof.Gen.ReferenceIdeal
import proofs.«128712_g2000203924513823_pallasbulk_293_2_alg».proof.Proof.Gen.Pre_finite_inputs
import proofs.«128712_g2000203924513823_pallasbulk_293_2_alg».proof.Proof.KernelValue
import proofs.«128712_g2000203924513823_pallasbulk_293_2_alg».proof.Proof.RefValue
import proofs.«128712_g2000203924513823_pallasbulk_293_2_alg».proof.Proof.LayerAlgebra
import proofs.«128712_g2000203924513823_pallasbulk_293_2_alg».proof.Proof.LayerFinite

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Whole.run_blocks (F := Ideal) m ρ)

/-- Both programs end with the same array: the kernel's is the layer aggregated first, the reference's the layer
    projected first, of arguments that agree and whose entries are real numbers. -/
theorem algebraic : Cert.algebraic_KernelIdeal_ReferenceIdeal := by
  intro m ρ m' ρ' hpre hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2.1, (hagree c).2.2.2]
  obtain ⟨hg, hh, hw, -⟩ := Cert.Layer.real_of_finite_inputs _ _ _ _ (hpre c)
  rw [Cert.Layer.aggFirst_eq_projFirst _ _ _ _ hg hh hw]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
